-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256 : Shape := ⟨3, ![8, 128, 256]⟩
abbrev S8x128 : Shape := ⟨2, ![8, 128]⟩
abbrev S256x256 : Shape := ⟨2, ![256, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8x128x256 : S_.BroadcastsInDim S8x128x256 (![] : Fin 0 → Fin S8x128x256.rank)
  reducesTo_S8x128x256_S_d0_1_2 : S8x128x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x128x256 .f32) (main_arg1 : IVec S8x128 1) (main_arg2 : FVec F S256x256 .f32) (main_arg3 : FVec F S768x256 .f32) (main_arg4 : FVec F S256 .f32) (main_arg5 : FVec F S256x1 .f32) (main_arg6 : FVec F S1 .f32) : IVec S_ 1 :=
  let main_v0 : FVec F S8x128x256 .f32 := Host.absf main_arg0
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_c : IVec S_ 1 := constantI S_ 1 1#1
  let main_v3 : IVec S_ 1 := (fun x v => Host.reduce IntOp.andi x v reducesTo_S8x128x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S8x128x256 : Shape := ⟨3, ![8, 128, 256]⟩
abbrev S8x128 : Shape := ⟨2, ![8, 128]⟩
abbrev S256x256 : Shape := ⟨2, ![256, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S8x128x128 : Shape := ⟨3, ![8, 128, 128]⟩
abbrev S1x128x256 : Shape := ⟨3, ![1, 128, 256]⟩
abbrev S1x64x256 : Shape := ⟨3, ![1, 64, 256]⟩
abbrev S1x64x128 : Shape := ⟨3, ![1, 64, 128]⟩
abbrev S128x256 : Shape := ⟨2, ![128, 256]⟩
abbrev S64x256 : Shape := ⟨2, ![64, 256]⟩
abbrev S64x1x256 : Shape := ⟨3, ![64, 1, 256]⟩
abbrev S64x128x256 : Shape := ⟨3, ![64, 128, 256]⟩
abbrev S1x1x256 : Shape := ⟨3, ![1, 1, 256]⟩
abbrev S64x128 : Shape := ⟨2, ![64, 128]⟩
abbrev S8x128x128x1 : Shape := ⟨4, ![8, 128, 128, 1]⟩

abbrev nBuf : Space → Nat
  | .hbm => 19
  | .vmem => 13
  | .smem => 0
  | _ => 0

abbrev bufTy : (tb : Table) → Fin (tcTables nBuf tb) → BufTy
  | .hbm, ⟨0, _⟩ => ⟨S8x128x256, .f32⟩
  | .hbm, ⟨1, _⟩ => ⟨S8x128, .i1⟩
  | .hbm, ⟨2, _⟩ => ⟨S256x256, .f32⟩
  | .hbm, ⟨3, _⟩ => ⟨S768x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .bf16⟩
  | .hbm, ⟨11, _⟩ => ⟨S256x256, .bf16⟩
  | .hbm, ⟨12, _⟩ => ⟨S256x256, .bf16⟩
  | .hbm, ⟨13, _⟩ => ⟨S256x256, .bf16⟩
  | .hbm, ⟨14, _⟩ => ⟨S1x256, .f32⟩
  | .hbm, ⟨15, _⟩ => ⟨S1x256, .f32⟩
  | .hbm, ⟨16, _⟩ => ⟨S1x1, .f32⟩
  | .hbm, ⟨17, _⟩ => ⟨S8x128x128, .f32⟩
  | .hbm, ⟨18, _⟩ => ⟨S8x128x128x1, .f32⟩
  | .local _ .vmem, ⟨0, _⟩ => ⟨S1x128x256, .f32⟩
  | .local _ .vmem, ⟨1, _⟩ => ⟨S1x128x256, .f32⟩
  | .local _ .vmem, ⟨2, _⟩ => ⟨S1x64x256, .f32⟩
  | .local _ .vmem, ⟨3, _⟩ => ⟨S1x64x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S1x1, .f32⟩
  | .local _ .vmem, ⟨11, _⟩ => ⟨S1x64x128, .f32⟩
  | .local _ .vmem, ⟨12, _⟩ => ⟨S1x64x128, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S768x256_S256x256_0_0 : S768x256.Slices ![0, 0] S256x256
  slices_S768x256_S256x256_256_0 : S768x256.Slices ![256, 0] S256x256
  slices_S768x256_S256x256_512_0 : S768x256.Slices ![512, 0] S256x256
  bitsLt_bf16_f32 : FTy.bits .bf16 < FTy.bits .f32
  shapeCasts_S256_S1x256 : S256.ShapeCasts S1x256
  transposes_S256x1_S1x256_1_0 : S256x1.Transposes [1, 0] S1x256
  shapeCasts_S1_S1x1 : S1.ShapeCasts S1x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S128x256_S256 : S128x256.Reduces [0] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  shapeCasts_S1x256_S1x1x256 : S1x256.ShapeCasts S1x1x256
  broadcasts_S1x1x256_S64x128x256 : S1x1x256.Broadcasts S64x128x256
  reduces_S64x128x256_S64x128 : S64x128x256.Reduces [2] S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x128 : S1x1.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  bcast_S8x128x128_S8x128x128x1_0_1_2 : S8x128x128.BroadcastsInDim S8x128x128x1 (![0, 1, 2] : Fin 3 → Fin S8x128x128x1.rank)
  dot_S1x256_S256x256_S1x256_1_0_0_1_n_n_wf : DotDims.WF S1x256 S256x256 S1x256 [1] [0] [0] [1] [] []
  dot_S128x256_S256x256_S128x256_1_0_0_1_n_n_wf : DotDims.WF S128x256 S256x256 S128x256 [1] [0] [0] [1] [] []
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S8x128x256.size a
  hwx0_0 : ∀ i : grid0.Coords, EltTy.bits .f32 = 32 ∨ (Rect.block (s := S8x128x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S8x128x256.size a
  hwx0_1 : ∀ i : grid0.Coords, EltTy.bits .f32 = 32 ∨ (Rect.block (s := S8x128x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x128.size a ≤ S8x128x128.size a
  hwx0_9 : ∀ i : grid0.Coords, EltTy.bits .f32 = 32 ∨ (Rect.block (s := S8x128x128) S1x64x128.size (cc0_transform_9 i) (hinb0_9 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x128x256 : Shape := ⟨3, ![8, 128, 256]⟩
abbrev S8x128 : Shape := ⟨2, ![8, 128]⟩
abbrev S256x256 : Shape := ⟨2, ![256, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S8x128x1x256 : Shape := ⟨4, ![8, 128, 1, 256]⟩
abbrev S8x128x128x256 : Shape := ⟨4, ![8, 128, 128, 256]⟩
abbrev S8x1x128x256 : Shape := ⟨4, ![8, 1, 128, 256]⟩
abbrev S_ : Shape := ⟨0, ![]⟩
abbrev S8x256 : Shape := ⟨2, ![8, 256]⟩
abbrev S8x1x1x256 : Shape := ⟨4, ![8, 1, 1, 256]⟩
abbrev S8x128x128x768 : Shape := ⟨4, ![8, 128, 128, 768]⟩
abbrev S1x1x1x256 : Shape := ⟨4, ![1, 1, 1, 256]⟩
abbrev S8x128x128x1 : Shape := ⟨4, ![8, 128, 128, 1]⟩
abbrev S1x1x1x1 : Shape := ⟨4, ![1, 1, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S8x128, .i1⟩
  | .hbm, ⟨2, _⟩ => ⟨S256x256, .f32⟩
  | .hbm, ⟨3, _⟩ => ⟨S768x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S8x128x1x256, .f32⟩
  | .hbm, ⟨8, _⟩ => ⟨S8x128x128x256, .f32⟩
  | .hbm, ⟨9, _⟩ => ⟨S8x1x128x256, .f32⟩
  | .hbm, ⟨10, _⟩ => ⟨S8x128x128x256, .f32⟩
  | .hbm, ⟨11, _⟩ => ⟨S_, .f32⟩
  | .hbm, ⟨12, _⟩ => ⟨S8x256, .f32⟩
  | .hbm, ⟨13, _⟩ => ⟨S_, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S8x1x1x256, .f32⟩
  | .hbm, ⟨18, _⟩ => ⟨S8x128x128x256, .f32⟩
  | .hbm, ⟨19, _⟩ => ⟨S8x128x128x768, .f32⟩
  | .hbm, ⟨20, _⟩ => ⟨S_, .f32⟩
  | .hbm, ⟨21, _⟩ => ⟨S8x128x128x768, .f32⟩
  | .hbm, ⟨22, _⟩ => ⟨S8x128x128x768, .f32⟩
  | .hbm, ⟨23, _⟩ => ⟨S8x128x128x256, .f32⟩
  | .hbm, ⟨24, _⟩ => ⟨S1x1x1x256, .f32⟩
  | .hbm, ⟨25, _⟩ => ⟨S8x128x128x256, .f32⟩
  | .hbm, ⟨26, _⟩ => ⟨S8x128x128x256, .f32⟩
  | .hbm, ⟨27, _⟩ => ⟨S_, .f32⟩
  | .hbm, ⟨28, _⟩ => ⟨S8x128x128x256, .f32⟩
  | .hbm, ⟨29, _⟩ => ⟨S8x128x128x256, .f32⟩
  | .hbm, ⟨30, _⟩ => ⟨S8x128x128x1, .f32⟩
  | .hbm, ⟨31, _⟩ => ⟨S1x1x1x1, .f32⟩
  | .hbm, ⟨32, _⟩ => ⟨S8x128x128x1, .f32⟩
  | .hbm, ⟨33, _⟩ => ⟨S8x128x128x1, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S8x128x256_S8x128x1x256_0_1_3 : S8x128x256.BroadcastsInDim S8x128x1x256 (![0, 1, 3] : Fin 3 → Fin S8x128x1x256.rank)
  bcast_S8x128x1x256_S8x128x128x256_0_1_2_3 : S8x128x1x256.BroadcastsInDim S8x128x128x256 (![0, 1, 2, 3] : Fin 4 → Fin S8x128x128x256.rank)
  bcast_S8x128x256_S8x1x128x256_0_2_3 : S8x128x256.BroadcastsInDim S8x1x128x256 (![0, 2, 3] : Fin 3 → Fin S8x1x128x256.rank)
  bcast_S8x1x128x256_S8x128x128x256_0_1_2_3 : S8x1x128x256.BroadcastsInDim S8x128x128x256 (![0, 1, 2, 3] : Fin 4 → Fin S8x128x128x256.rank)
  reducesTo_S8x128x256_S8x256_d1 : S8x128x256.ReducesTo [1] S8x256
  h_S_ : 0 < S_.numel
  bcast_S_S8x256 : S_.BroadcastsInDim S8x256 (![] : Fin 0 → Fin S8x256.rank)
  bcast_S8x256_S8x1x1x256_0_3 : S8x256.BroadcastsInDim S8x1x1x256 (![0, 3] : Fin 2 → Fin S8x1x1x256.rank)
  bcast_S8x1x1x256_S8x128x128x256_0_1_2_3 : S8x1x1x256.BroadcastsInDim S8x128x128x256 (![0, 1, 2, 3] : Fin 4 → Fin S8x128x128x256.rank)
  concatenates_S8x128x128x256_S8x128x128x256_S8x128x128x256_S8x128x128x768_d3 : Shape.Concatenates [S8x128x128x256, S8x128x128x256, S8x128x128x256] S8x128x128x768 3
  bcast_S_S8x128x128x768 : S_.BroadcastsInDim S8x128x128x768 (![] : Fin 0 → Fin S8x128x128x768.rank)
  bcast_S256_S1x1x1x256_3 : S256.BroadcastsInDim S1x1x1x256 (![3] : Fin 1 → Fin S1x1x1x256.rank)
  bcast_S1x1x1x256_S8x128x128x256_0_1_2_3 : S1x1x1x256.BroadcastsInDim S8x128x128x256 (![0, 1, 2, 3] : Fin 4 → Fin S8x128x128x256.rank)
  bcast_S_S8x128x128x256 : S_.BroadcastsInDim S8x128x128x256 (![] : Fin 0 → Fin S8x128x128x256.rank)
  bcast_S1_S1x1x1x1_3 : S1.BroadcastsInDim S1x1x1x1 (![3] : Fin 1 → Fin S1x1x1x1.rank)
  bcast_S1x1x1x1_S8x128x128x1_0_1_2_3 : S1x1x1x1.BroadcastsInDim S8x128x128x1 (![0, 1, 2, 3] : Fin 4 → Fin S8x128x128x1.rank)
  dot_S8x256_S256x256_S8x256_1_0_0_1_n_n_wf : DotDims.WF S8x256 S256x256 S8x256 [1] [0] [0] [1] [] []
  dot_S8x128x128x768_S768x256_S8x128x128x256_3_0_012_1_n_n_wf : DotDims.WF S8x128x128x768 S768x256 S8x128x128x256 [3] [0] [0, 1, 2] [1] [] []
  dot_S8x128x128x256_S256x1_S8x128x128x1_3_0_012_1_n_n_wf : DotDims.WF S8x128x128x256 S256x1 S8x128x128x1 [3] [0] [0, 1, 2] [1] [] []

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x128x128x768_S768x256_S8x128x128x256_3_0_012_1_n_n : DotDims S8x128x128x768 S768x256 S8x128x128x256 where
  lhsContracting := [3]
  rhsContracting := [0]
  lhsNonContracting := [0, 1, 2]
  rhsNonContracting := [1]
  lhsBatch := []
  rhsBatch := []
  wf := dot_S8x128x128x768_S768x256_S8x128x128x256_3_0_012_1_n_n_wf
def dot_S8x128x128x256_S256x1_S8x128x128x1_3_0_012_1_n_n : DotDims S8x128x128x256 S256x1 S8x128x128x1 where
  lhsContracting := [3]
  rhsContracting := [0]
  lhsNonContracting := [0, 1, 2]
  rhsNonContracting := [1]
  lhsBatch := []
  rhsBatch := []
  wf := dot_S8x128x128x256_S256x1_S8x128x128x1_3_0_012_1_n_n_wf

class Facts : Prop extends Facts₀ where

variable [Facts]
-- ==== Proof.BitsBlocks.lean ====
/-
  The kernel's region, point by point (program `Kernel`).

  @main runs ten host operations (three 256-row bands sliced off the first layer's 768 weight rows, four
  changes of float format, the bias and the second layer's weights re-laid as rows), then one region over a
  grid of 16 points — 8 batch rows by 2 halves of the 128 node rows —, then one host operation that adds a
  unit axis to the region's result.

  At the point of batch row `b` and half `h` the body is handed, in ten windows: all 128 node rows of batch
  row `b` (window 0) and the 64 node rows of half `h` (window 1) — BOTH are blocks of the one array of node
  embeddings —, the six weight and bias arrays whole (windows 2–8), and the block of the result it is to fill
  (window 9: rows `64h … 64h+63` of batch row `b`). It loads each input whole, stores once into the whole
  output block, and touches nothing else. So after the body every input block is as it was, and the output
  block holds the value of that one store: a pure function of the nine input blocks (`leaves`).
  This module states that, as the body's triple, and packages it as the region's proof data: the array of node
  embeddings is read through two windows, so the region holds it as two half shares, one per window.
-/
import proofs.«137493_j67302137528982_2_alg».proof.Proof.Gen.Kernel.Launch
import proofs.«137493_j67302137528982_2_alg».proof.Proof.Gen.Kernel.Skeleton
import proofs.«137493_j67302137528982_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the ten host operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one host operation after it: it reduces to
    the region continued by that operation, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rX : Rect S1x128x256 := Rect.unit (s := S1x128x256) ![0, 0, 0] S1x128x256.size inb_S1x128x256_S1x128x256_0_0_0
abbrev rXi : Rect S1x64x256 := Rect.unit (s := S1x64x256) ![0, 0, 0] S1x64x256.size inb_S1x64x256_S1x64x256_0_0_0
abbrev rW : Rect S256x256 := Rect.unit (s := S256x256) ![0, 0] S256x256.size inb_S256x256_S256x256_0_0
abbrev rRow : Rect S1x256 := Rect.unit (s := S1x256) ![0, 0] S1x256.size inb_S1x256_S1x256_0_0
abbrev rOne : Rect S1x1 := Rect.unit (s := S1x1) ![0, 0] S1x1.size inb_S1x1_S1x1_0_0
abbrev rOut : Rect S1x64x128 := Rect.unit (s := S1x64x128) ![0, 0, 0] S1x64x128.size inb_S1x64x128_S1x64x128_0_0_0

/-- The value of the body's one store, from the nine input blocks (in window order: all node rows, the 64 node rows,
    the pooling weights, the pooled band, the `i` band, the `j` band, the second layer's row, the bias row, the
    second layer's bias). -/
def stored (x0 : Vec F S1x128x256 .f32) (x1 : Vec F S1x64x256 .f32) (x2 x3 x4 x5 : Vec F S256x256 .bf16)
    (x6 x7 : Vec F S1x256 .f32) (x8 : Vec F S1x1 .f32) : FVec F S1x64x128 .f32 :=
  k0_pay1 (k0_pay3 (View.ld x0 rX) (View.ld x5 rW)) (k0_pay4 (View.ld x1 rXi) (View.ld x4 rW)) (k0_pay5 (View.ld x7 rRow))
    (k0_pay6 (View.ld x0 rX) (View.ld x2 rW) (View.ld x3 rW)) (View.ld x6 rRow) (View.ld x8 rOne)

/-- The output block after the body: the one store, which covers it. -/
def leaves (x0 : Vec F S1x128x256 .f32) (x1 : Vec F S1x64x256 .f32) (x2 x3 x4 x5 : Vec F S256x256 .bf16)
    (x6 x7 : Vec F S1x256 .f32) (x8 : Vec F S1x1 .f32) : Vec F S1x64x128 .f32 :=
  View.canon [⟨rOut, stored x0 x1 x2 x3 x4 x5 x6 x7 x8⟩]

/-- The store's rectangle is the whole block. -/
theorem covers (p0 : Vec F S1x64x128 .f32) (y : S1x64x128.Idx) :
    ∃ pc ∈ ([⟨rOut, p0⟩] : List (View.Piece (Elt F) S1x64x128 .f32)), y ∈ pc.1.set :=
  View.cover_of_tiled [⟨rOut, p0⟩] S1x64x128.size (by rfl) y

/-! ## The body's triple -/

set_option maxHeartbeats 4000000 in
/-- The body on whole staging buffers — the nine inputs at contents `x0 … x8`, the output at anything — runs to its
    end with the inputs as they were and the output at `leaves` of them. -/
theorem body_runs (c : Dev nD) (E : Set ℕ) (i : grid0.Coords)
    (arg2 : Memref sig .tc .vmem S1x128x256 .f32) (harg2 : arg2.IsWhole) (arg3 : Memref sig .tc .vmem S1x64x256 .f32) (harg3 : arg3.IsWhole)
    (arg4 : Memref sig .tc .vmem S256x256 .bf16) (harg4 : arg4.IsWhole) (arg5 : Memref sig .tc .vmem S256x256 .bf16) (harg5 : arg5.IsWhole)
    (arg6 : Memref sig .tc .vmem S256x256 .bf16) (harg6 : arg6.IsWhole) (arg7 : Memref sig .tc .vmem S256x256 .bf16) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1x1 .f32) (harg10 : arg10.IsWhole) (arg11 : Memref sig .tc .vmem S1x64x128 .f32) (harg11 : arg11.IsWhole)
    (x0 : Vec F S1x128x256 .f32) (x1 : Vec F S1x64x256 .f32) (x2 x3 x4 x5 : Vec F S256x256 .bf16)
    (x6 x7 : Vec F S1x256 .f32) (x8 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (leaves x0 x1 x2 x3 x4 x5 x6 x7 x8)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (covers _)

end Cert.Kernel.Region

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- What the region's one output block holds after the body at point `t`: `leaves` of the nine input blocks there. -/
def outAt (c : Dev nD) (t : Fin cfg0.N) : Vec F S1x64x128 .f32 :=
  leaves (blockAt m c 0 t) (blockAt m c 1 t) (blockAt m c 2 t) (blockAt m c 3 t) (blockAt m c 4 t) (blockAt m c 5 t)
    (blockAt m c 6 t) (blockAt m c 7 t) (blockAt m c 8 t)

/-- The proof data on core `c`: the arrays as the region finds them; after the body at point `t` every input's buffer
    at its block and the output's at `outAt`; nothing carried from point to point beyond what every region keeps;
    nothing owed. The node embeddings are read through windows 0 and 1: each holds half of that array's share. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => outAt m c t
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = outAt m c t := by dsimp only [dats]

/-- An input window's staging buffer holds its block whenever the body runs, whether the block was fetched at that
    point or is still there from an earlier one (its index has then not moved). -/
theorem before_0 (c : Dev nD) (t : Fin cfg0.N) (d) : (dats m 0 c).before 0 t d = blockAt m c 0 t :=
  ((dats m 0 c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl) (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dats m 0 c).before 3 t d = blockAt m c 3 t :=
  ((dats m 0 c).before_in_eq_fetched 3 rfl (fun _ => rfl) (fun _ _ _ => rfl) (fun t => by rw [after_3]; unfold Dat.blockOf blockAt; rw [A_eq]; try rfl) t d).trans
    (by unfold Dat.fetched Dat.blockOf blockAt; rw [A_eq]; try rfl)
theorem before_4 (c : Dev nD) (t : Fin cfg0.N) (d) : (dats m 0 c).before 4 t d = blockAt m c 4 t :=
  ((dats m 0 c).before_in_eq_fetched 4 rfl (fun _ => rfl) (fun _ _ _ => rfl) (fun t => by rw [after_4]; unfold Dat.blockOf blockAt; rw [A_eq]; try rfl) t d).trans
    (by unfold Dat.fetched Dat.blockOf blockAt; rw [A_eq]; try rfl)
theorem before_5 (c : Dev nD) (t : Fin cfg0.N) (d) : (dats m 0 c).before 5 t d = blockAt m c 5 t :=
  ((dats m 0 c).before_in_eq_fetched 5 rfl (fun _ => rfl) (fun _ _ _ => rfl) (fun t => by rw [after_5]; unfold Dat.blockOf blockAt; rw [A_eq]; try rfl) t d).trans
    (by unfold Dat.fetched Dat.blockOf blockAt; rw [A_eq]; try rfl)
theorem before_6 (c : Dev nD) (t : Fin cfg0.N) (d) : (dats m 0 c).before 6 t d = blockAt m c 6 t :=
  ((dats m 0 c).before_in_eq_fetched 6 rfl (fun _ => rfl) (fun _ _ _ => rfl) (fun t => by rw [after_6]; unfold Dat.blockOf blockAt; rw [A_eq]; try rfl) t d).trans
    (by unfold Dat.fetched Dat.blockOf blockAt; rw [A_eq]; try rfl)
theorem before_7 (c : Dev nD) (t : Fin cfg0.N) (d) : (dats m 0 c).before 7 t d = blockAt m c 7 t :=
  ((dats m 0 c).before_in_eq_fetched 7 rfl (fun _ => rfl) (fun _ _ _ => rfl) (fun t => by rw [after_7]; unfold Dat.blockOf blockAt; rw [A_eq]; try rfl) t d).trans
    (by unfold Dat.fetched Dat.blockOf blockAt; rw [A_eq]; try rfl)
theorem before_8 (c : Dev nD) (t : Fin cfg0.N) (d) : (dats m 0 c).before 8 t d = blockAt m c 8 t :=
  ((dats m 0 c).before_in_eq_fetched 8 rfl (fun _ => rfl) (fun _ _ _ => rfl) (fun t => by rw [after_8]; unfold Dat.blockOf blockAt; rw [A_eq]; try rfl) t d).trans
    (by unfold Dat.fetched Dat.blockOf blockAt; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so `body_runs` applies; what the region keeps between
    points and what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c Set.univ (grid0.coords t) _ _ _ _ _ _ _ _ _ _ _ _ _ _ _ _ _ _ _ _
    (blockAt m c 0 t) (blockAt m c 1 t) (blockAt m c 2 t) (blockAt m c 3 t) (blockAt m c 4 t) (blockAt m c 5 t)
    (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the region, at every point. -/
theorem body_obligation (c : Dev nD) : BodyObligation (dats (F := F) m 0 c) (defs₀ (F := F)) Variants.none () Set.univ := fun t => by
  rw [bigSep_W0, bigSep_W0]
  exact body_at m c t

end Cert.Kernel.Region

end
-- ==== Proof.BitsRun.lean ====
/-
  The region's launch (program `Kernel`): how the buffers the host operations leave become the region's arrays and
  come back.

  Ten windows stand on nine buffers: windows 0 and 1 both read the array of node embeddings. Entering the region, that
  buffer's full share is dealt into its two halves, one per window; every other window takes its buffer whole. Leaving
  it, the two halves — both still at the contents the region found, an input being never written — join into the full
  share again. Between the buffers held whole and the windows' arrays nothing else changes, so the two descriptions
  entail each other at any contents.
-/
import proofs.«137493_j67302137528982_2_alg».proof.Proof.BitsBlocks

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Windows and buffers -/

/-- The nine distinct buffers behind the ten windows, each whole at the full share, one by one. -/
theorem bufs_listed (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v3) ↦{fullShare} W main_v3) ∗ (((c : Thread nD τ).loc main_v4) ↦{fullShare} W main_v4) ∗ (((c : Thread nD τ).loc main_v5) ↦{fullShare} W main_v5) ∗ (((c : Thread nD τ).loc main_v6) ↦{fullShare} W main_v6) ∗ (((c : Thread nD τ).loc main_v8) ↦{fullShare} W main_v8) ∗ (((c : Thread nD τ).loc main_v7) ↦{fullShare} W main_v7) ∗ (((c : Thread nD τ).loc main_v9) ↦{fullShare} W main_v9) ∗ (((c : Thread nD τ).loc main_v10) ↦{fullShare} W main_v10)) := by
  unfold Pipeline.arrBufs
  exact bigSep_eq_bigSepL_of_eq [main_arg0, main_v3, main_v4, main_v5, main_v6, main_v8, main_v7, main_v9, main_v10] (by decide) (by decide) _

/-- The ten windows' arrays at contents read off `W`, one by one: the node embeddings twice, at the two halves. -/
theorem arrays_listed (c : Dev nD) (W : (b : Ref sig .tc) → Buf (Elt F) ((c : Thread nD τ).loc b)) :
    ((dats m 0 c).arrays (fun w => W (Pipeline.arrRef spec0 w)) : sProp 𝕄)
      = iprop((((c : Thread nD τ).loc main_arg0) ↦{fullShare.left} W main_arg0) ∗ (((c : Thread nD τ).loc main_arg0) ↦{fullShare.right} W main_arg0) ∗ (((c : Thread nD τ).loc main_v3) ↦{fullShare} W main_v3) ∗ (((c : Thread nD τ).loc main_v4) ↦{fullShare} W main_v4) ∗ (((c : Thread nD τ).loc main_v5) ↦{fullShare} W main_v5) ∗ (((c : Thread nD τ).loc main_v6) ↦{fullShare} W main_v6) ∗ (((c : Thread nD τ).loc main_v8) ↦{fullShare} W main_v8) ∗ (((c : Thread nD τ).loc main_v7) ↦{fullShare} W main_v7) ∗ (((c : Thread nD τ).loc main_v9) ↦{fullShare} W main_v9) ∗ (((c : Thread nD τ).loc main_v10) ↦{fullShare} W main_v10)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ]
  rfl

/-- Entering: the buffers held whole give the windows' arrays. -/
theorem arrays_of_bufs (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dats m 0 c).arrays (fun w => W (Pipeline.arrRef spec0 w)) := by
  rw [bufs_listed, arrays_listed]
  iintro ⟨H0, Hr⟩
  ihave H0 := (pointsTo_share (PosShare.mem_left_op_right fullShare)).1 $$ H0
  icases H0 with ⟨Hl, Hrt⟩
  isplitl [Hl]; · iexact Hl
  isplitl [Hrt]; · iexact Hrt
  iexact Hr

/-- Leaving: the windows' arrays give the buffers back whole. -/
theorem bufs_of_arrays (c : Dev nD) (W : (b : Ref sig .tc) → Buf (Elt F) ((c : Thread nD τ).loc b)) :
    ((dats m 0 c).arrays (fun w => W (Pipeline.arrRef spec0 w)) : sProp 𝕄)
      ⊢ Pipeline.arrBufs (Ix := Unit) (Name := ℕ) (U := UR sig nD τ) (Lvl := ℕ) spec0 c W := by
  rw [bufs_listed, arrays_listed]
  iintro ⟨Hl, Hrt, Hr⟩
  isplitl [Hl Hrt]
  · iapply (pointsTo_share (PosShare.mem_left_op_right fullShare)).2
    isplitl [Hl]; · iexact Hl
    iexact Hrt
  iexact Hr

/-! ## The buffers when the region is left, and after the last host operation -/

/-- Core `c`'s buffers when the region is left: as the region found them, except the result array, which holds what the
    region wrote into it block by block. -/
def Vout (c : Dev nD) : Valuation τ sig (Elt F) :=
  Function.update (V0 m c) (Proc.devRef .tc main_v10) ((dats m 0 c).arrAt 9 cfg0.N)

/-- Core `c`'s buffers at the end: the last host operation (the result with a unit axis added) run from `Vout`. -/
def Vend (c : Dev nD) : Valuation τ sig (Elt F) := StableHlo.after (List.flatten [hostOps1]) (Vout m c)

/-- Only the output window stands on the result array. -/
theorem only_out : ∀ w : Fin cfg0.W, w ≠ 9 → Pipeline.arrRef spec0 w ≠ main_v10 := by decide

/-- When the region is left every window's array holds what `Vout` says: an input is never written, the output holds
    what the region wrote. -/
theorem arrs_out (c : Dev nD) :
    (fun w => (dats m 0 c).arrAt w cfg0.N) = fun w => Vout m c (Proc.devRef .tc (Pipeline.arrRef spec0 w)) := by
  funext w
  by_cases h : w = 9
  · subst h
    exact (Function.update_self (f := V0 m c) (Proc.devRef .tc main_v10) ((dats m 0 c).arrAt 9 cfg0.N)).symm
  · have hin : (cfg0.win w).isOut = false := by
      revert h; revert w; decide
    rw [(dats m 0 c).arrAt_in w hin, A_eq]
    exact (Function.update_of_ne (StableHlo.devRef_ne_of_ne (only_out w h)) _ _).symm

/-- The last host operation writes no window's array. -/
theorem tail_keeps (c : Dev nD) (w : Fin cfg0.W) :
    Vend m c (Proc.devRef .tc (Pipeline.arrRef spec0 w)) = Vout m c (Proc.devRef .tc (Pipeline.arrRef spec0 w)) :=
  StableHlo.after_of_forall_not_mem (b := Proc.devRef .tc (Pipeline.arrRef spec0 w)) _ _ (by
    intro op hop
    simp only [hostOps1, List.flatten_cons, List.flatten_nil, List.append_nil, List.mem_cons, List.mem_nil_iff, or_false] at hop
    subst hop
    simp only [StableHlo.unary_writes, Finset.mem_singleton]
    revert w; intro w
    exact StableHlo.devRef_ne_of_ne (by revert w; decide))

/-! ## The host operation after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- All of core `c`'s unscoped buffers held whole at `W` are the nine buffers behind the windows and the rest. -/
theorem held_split (c : Dev nD) (W : Valuation τ sig (Elt F)) :
    (StableHlo.held (c : Thread nD τ) (Pipeline.ucRefs τ sig) W : sProp 𝕄)
      = iprop(Pipeline.arrBufs spec0 c (fun b => W (Proc.devRef .tc b)) ∗ Pipeline.unscopedRest spec0 c (fun b => W (Proc.devRef .tc b))) :=
  (Pipeline.unscopedBufs_held (Ix := Unit) (Name := ℕ) (U := UR sig nD τ) (Lvl := ℕ) c W).symm.trans
    (Pipeline.unscopedBufs_split₀ cfgs 0 winFacts₀0.arr_unscoped c _)

/-- The buffers no window stands on are the same at `Vout` as the region found them. -/
theorem rest_out (c : Dev nD) :
    (Pipeline.unscopedRest (Ix := Unit) (Name := ℕ) (U := UR sig nD τ) (Lvl := ℕ) spec0 c (V m c) : sProp 𝕄)
      = Pipeline.unscopedRest spec0 c (fun b => Vout m c (Proc.devRef .tc b)) := by
  classical
  unfold Pipeline.unscopedRest
  exact bigSep_congr fun b hb => by
    have e : Vout m c (Proc.devRef .tc b) = V m c b :=
      Function.update_of_ne (StableHlo.devRef_ne_of_ne fun e => (Finset.mem_sdiff.mp hb).2 (Finset.mem_image.mpr ⟨9, Finset.mem_univ _, e.symm⟩)) _ _
    exact congrArg (fun x => ((((c : Thread nD τ).loc b) ↦{fullShare} x) : sProp 𝕄)) e.symm

set_option backward.isDefEq.respectTransparency.types false in
/-- From the region's exit — the windows' arrays at their final contents, every other unscoped buffer as the region found
    it — the last host operation runs, and hands back the arrays unchanged and the other buffers at `Vend`. -/
theorem tail_runs (c : Dev nD) (Q' : PUnit → sProp 𝕄) :
    iprop((iprop((dats m 0 c).arrays (fun w => (dats m 0 c).arrAt w cfg0.N)
            ∗ Pipeline.unscopedRest spec0 c (fun b => Vend m c (Proc.devRef .tc b))) -∗ Q' ⟨⟩)
        ∗ boundary (c : Thread nD τ) ∗ (dats m 0 c).arrays (fun w => (dats m 0 c).arrAt w cfg0.N)
        ∗ Pipeline.unscopedRest spec0 c (V m c))
      ⊢ wp frame (wpE (Pipeline.defs (fun q => (cfgs q).toPCfg (Val := Elt F)) (defs₀ (F := F))) (Variants.lift Variants.none) (c : Thread nD τ) none) Set.univ
          (Pipeline.chain [StableHlo.seq hostOps1]) Q' := by
  rw [arrs_out m c, rest_out m c, ← List.append_nil [StableHlo.seq hostOps1]]
  iintro ⟨Hk, Hb, Ha, Hz⟩
  ihave Hbufs := (bufs_of_arrays m c (fun b => Vout m c (Proc.devRef .tc b))) $$ Ha
  iapply (Pipeline.wp_seqs_then (fun q => (cfgs q).toPCfg (Val := Elt F)) defs₀ Variants.none c (Pipeline.ucRefs τ sig) [] [hostOps1] tail_sub tail_fresh (Vout m c)) $$ [Hb Hbufs Hz]
  · rw [held_split]
    isplitl [Hb]; · iexact Hb
    isplitl [Hbufs]; · iexact Hbufs
    iexact Hz
  iintro Hb
  rw [Pipeline.chain_nil, wp_pure, held_split]
  imodintro
  iapply Hk
  icases Hb with ⟨-, Hbufs, Hz⟩
  isplitl [Hbufs]
  · rw [show (fun w => Vout m c (Proc.devRef .tc (Pipeline.arrRef spec0 w)))
        = fun w => (fun b => Vend m c (Proc.devRef .tc b)) (Pipeline.arrRef spec0 w) from funext fun w => (tail_keeps m c w).symm]
    iapply (arrays_of_bufs m c (fun b => Vend m c (Proc.devRef .tc b)))
    iexact Hbufs
  iexact Hz

/-! ## The run -/

/-- What a final state holds: every window's array at what the region's write-backs make of it (an input as launched
    into the region, the result array block by block), every other unscoped buffer at `Vend`. -/
def Ends (r : PUnit × MemSt nD τ sig (Elt F)) : Prop :=
  ∀ c : Dev nD,
    (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = Vend m c (Proc.devRef .tc b)

set_option backward.isDefEq.respectTransparency.types false in
/-- At the compiled mesh, from any memory with zero counters: every weakly fair execution of @main on the TensorCores
    terminates, nothing faulting, and every final state is as `Ends` says. The array of node embeddings enters the
    region as two half shares, one per window on it, and leaves it whole. -/
theorem run_main : θ_run defs (onTc (τ := τ) (main (F := F))) (s₀ m ρ) (Ends m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [show (fun w => (dats m 0 c).arrAt w 0) = fun w => (V m c) (Pipeline.arrRef spec0 w) from funext fun w => A_eq m c w]
      exact arrays_of_bufs m c (V m c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vend m c (Proc.devRef .tc b)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_runs m c Q')
    (QY := fun c s => ∀ b ∈ Pipeline.restRefs sig spec0, s.mem ((c : Thread nD τ).loc b) = Vend m c (Proc.devRef .tc b))
    (hY := fun c s' => by
      iintro ⟨-, HU, HSI⟩
      unfold Pipeline.unscopedRest
      imodintro
      iapply (pointsTo_read_all (Pipeline.restRefs sig spec0) (fun b => (c : Thread nD τ).loc b) (fun b => Vend m c (Proc.devRef .tc b)) s')
      isplitl [HU] <;> iassumption)
    (hQ := fun s h c => ⟨(h c).1, (h c).2.2⟩)

end Cert.Kernel.Region

end
-- ==== Proof.BitsFrame.lean ====
/-
  What the run leaves (program `Kernel`): the arguments and the result.

  No host operation writes an argument array, and the region writes back only its output window, so every argument
  ends as launched: the node embeddings because an input window's array is never written, the others because they
  bypass the region and the host operations around it only read them. The result is the last host operation — a unit
  axis added — applied to what the region's write-backs made of its output array.
-/
import proofs.«137493_j67302137528982_2_alg».proof.Proof.BitsRun

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arguments when the region is entered -/

/-- No host operation before the region writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arguments at the end -/

/-- Argument 1 bypasses the region and the last host operation does not write it. -/
theorem Vend_arg1 (c : Dev nD) : Vend m c (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg1 m c))

/-- Argument 2 bypasses the region and the last host operation does not write it. -/
theorem Vend_arg2 (c : Dev nD) : Vend m c (Proc.devRef .tc main_arg2) = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg2 m c))

/-- Argument 3 bypasses the region and the last host operation does not write it. -/
theorem Vend_arg3 (c : Dev nD) : Vend m c (Proc.devRef .tc main_arg3) = m ((c : Thread nD τ).loc main_arg3) :=
  (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg3 m c))

/-- Argument 4 bypasses the region and the last host operation does not write it. -/
theorem Vend_arg4 (c : Dev nD) : Vend m c (Proc.devRef .tc main_arg4) = m ((c : Thread nD τ).loc main_arg4) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg4 m c))

/-- Argument 5 bypasses the region and the last host operation does not write it. -/
theorem Vend_arg5 (c : Dev nD) : Vend m c (Proc.devRef .tc main_arg5) = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg5 m c))

/-- Argument 6 bypasses the region and the last host operation does not write it. -/
theorem Vend_arg6 (c : Dev nD) : Vend m c (Proc.devRef .tc main_arg6) = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg6 m c))

/-- The result: the last host operation applied to what the region left in its output array. -/
theorem Vend_result (c : Dev nD) :
    Vend m c (Proc.devRef .tc main_v11)
      = (broadcastInDim S8x128x128x1 ![0, 1, 2] bcast_S8x128x128_S8x128x128x1_0_1_2 ((dats m 0 c).arrAt 9 cfg0.N) : (⟨S8x128x128x1, .f32⟩ : BufTy).Contents (Elt F)) := by
  unfold Vend
  simp only [hostOps1, List.flatten_cons, List.flatten_nil, List.append_nil]
  after_results
  unfold Vout
  rw [Function.update_self]

/-! ## The run read at the arguments and the result -/

/-- Every weakly fair execution of @main terminates, nothing faulting, with the result at the last host operation of
    the region's output array and every argument as launched. -/
theorem run_result : θ_run defs (onTc (τ := τ) (main (F := F))) ⟨m, fun _ => 0, ρ⟩ (fun r => ∀ c : Dev nD,
      r.2.mem ((c.tc : Thread nD τ).loc main_v11)
        = (broadcastInDim S8x128x128x1 ![0, 1, 2] bcast_S8x128x128_S8x128x128x1_0_1_2 ((dats m 0 c).arrAt 9 cfg0.N) : (⟨S8x128x128x1, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v11 (by decide)).trans (Vend_result m c),
     ((h c).1 0).trans (((dats m 0 c).arrAt_in 0 rfl _).trans ((A_eq m c 0).trans (V_arg0 m c))),
     ((h c).2 main_arg1 (by decide)).trans (Vend_arg1 m c),
     ((h c).2 main_arg2 (by decide)).trans (Vend_arg2 m c),
     ((h c).2 main_arg3 (by decide)).trans (Vend_arg3 m c),
     ((h c).2 main_arg4 (by decide)).trans (Vend_arg4 m c),
     ((h c).2 main_arg5 (by decide)).trans (Vend_arg5 m c),
     ((h c).2 main_arg6 (by decide)).trans (Vend_arg6 m c)⟩) (run_main m ρ)

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.Kernel.Region

end
-- ==== Proof.IdealBlocks.lean ====
/-
  The kernel's region, point by point (program `KernelIdeal`).

  @main runs ten host operations (three 256-row bands sliced off the first layer's 768 weight rows, four
  changes of float format, the bias and the second layer's weights re-laid as rows), then one region over a
  grid of 16 points — 8 batch rows by 2 halves of the 128 node rows —, then one host operation that adds a
  unit axis to the region's result.

  At the point of batch row `b` and half `h` the body is handed, in ten windows: all 128 node rows of batch
  row `b` (window 0) and the 64 node rows of half `h` (window 1) — BOTH are blocks of the one array of node
  embeddings —, the six weight and bias arrays whole (windows 2–8), and the block of the result it is to fill
  (window 9: rows `64h … 64h+63` of batch row `b`). It loads each input whole, stores once into the whole
  output block, and touches nothing else. So after the body every input block is as it was, and the output
  block holds the value of that one store: a pure function of the nine input blocks (`leaves`).
  This module states that, as the body's triple, and packages it as the region's proof data: the array of node
  embeddings is read through two windows, so the region holds it as two half shares, one per window.
-/
import proofs.«137493_j67302137528982_2_alg».proof.Proof.Gen.KernelIdeal.Launch
import proofs.«137493_j67302137528982_2_alg».proof.Proof.Gen.KernelIdeal.Skeleton
import proofs.«137493_j67302137528982_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the ten host operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one host operation after it: it reduces to
    the region continued by that operation, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rX : Rect S1x128x256 := Rect.unit (s := S1x128x256) ![0, 0, 0] S1x128x256.size inb_S1x128x256_S1x128x256_0_0_0
abbrev rXi : Rect S1x64x256 := Rect.unit (s := S1x64x256) ![0, 0, 0] S1x64x256.size inb_S1x64x256_S1x64x256_0_0_0
abbrev rW : Rect S256x256 := Rect.unit (s := S256x256) ![0, 0] S256x256.size inb_S256x256_S256x256_0_0
abbrev rRow : Rect S1x256 := Rect.unit (s := S1x256) ![0, 0] S1x256.size inb_S1x256_S1x256_0_0
abbrev rOne : Rect S1x1 := Rect.unit (s := S1x1) ![0, 0] S1x1.size inb_S1x1_S1x1_0_0
abbrev rOut : Rect S1x64x128 := Rect.unit (s := S1x64x128) ![0, 0, 0] S1x64x128.size inb_S1x64x128_S1x64x128_0_0_0

/-- The value of the body's one store, from the nine input blocks (in window order: all node rows, the 64 node rows,
    the pooling weights, the pooled band, the `i` band, the `j` band, the second layer's row, the bias row, the
    second layer's bias). -/
def stored (x0 : Vec F S1x128x256 .f32) (x1 : Vec F S1x64x256 .f32) (x2 x3 x4 x5 : Vec F S256x256 .bf16)
    (x6 x7 : Vec F S1x256 .f32) (x8 : Vec F S1x1 .f32) : FVec F S1x64x128 .f32 :=
  k0_pay1 (k0_pay3 (View.ld x0 rX) (View.ld x5 rW)) (k0_pay4 (View.ld x1 rXi) (View.ld x4 rW)) (k0_pay5 (View.ld x7 rRow))
    (k0_pay6 (View.ld x0 rX) (View.ld x2 rW) (View.ld x3 rW)) (View.ld x6 rRow) (View.ld x8 rOne)

/-- The output block after the body: the one store, which covers it. -/
def leaves (x0 : Vec F S1x128x256 .f32) (x1 : Vec F S1x64x256 .f32) (x2 x3 x4 x5 : Vec F S256x256 .bf16)
    (x6 x7 : Vec F S1x256 .f32) (x8 : Vec F S1x1 .f32) : Vec F S1x64x128 .f32 :=
  View.canon [⟨rOut, stored x0 x1 x2 x3 x4 x5 x6 x7 x8⟩]

/-- The store's rectangle is the whole block. -/
theorem covers (p0 : Vec F S1x64x128 .f32) (y : S1x64x128.Idx) :
    ∃ pc ∈ ([⟨rOut, p0⟩] : List (View.Piece (Elt F) S1x64x128 .f32)), y ∈ pc.1.set :=
  View.cover_of_tiled [⟨rOut, p0⟩] S1x64x128.size (by rfl) y

/-! ## The body's triple -/

set_option maxHeartbeats 4000000 in
/-- The body on whole staging buffers — the nine inputs at contents `x0 … x8`, the output at anything — runs to its
    end with the inputs as they were and the output at `leaves` of them. -/
theorem body_runs (c : Dev nD) (E : Set ℕ) (i : grid0.Coords)
    (arg2 : Memref sig .tc .vmem S1x128x256 .f32) (harg2 : arg2.IsWhole) (arg3 : Memref sig .tc .vmem S1x64x256 .f32) (harg3 : arg3.IsWhole)
    (arg4 : Memref sig .tc .vmem S256x256 .bf16) (harg4 : arg4.IsWhole) (arg5 : Memref sig .tc .vmem S256x256 .bf16) (harg5 : arg5.IsWhole)
    (arg6 : Memref sig .tc .vmem S256x256 .bf16) (harg6 : arg6.IsWhole) (arg7 : Memref sig .tc .vmem S256x256 .bf16) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1x1 .f32) (harg10 : arg10.IsWhole) (arg11 : Memref sig .tc .vmem S1x64x128 .f32) (harg11 : arg11.IsWhole)
    (x0 : Vec F S1x128x256 .f32) (x1 : Vec F S1x64x256 .f32) (x2 x3 x4 x5 : Vec F S256x256 .bf16)
    (x6 x7 : Vec F S1x256 .f32) (x8 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (leaves x0 x1 x2 x3 x4 x5 x6 x7 x8)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (covers _)

end Cert.KernelIdeal.Region

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- What the region's one output block holds after the body at point `t`: `leaves` of the nine input blocks there. -/
def outAt (c : Dev nD) (t : Fin cfg0.N) : Vec F S1x64x128 .f32 :=
  leaves (blockAt m c 0 t) (blockAt m c 1 t) (blockAt m c 2 t) (blockAt m c 3 t) (blockAt m c 4 t) (blockAt m c 5 t)
    (blockAt m c 6 t) (blockAt m c 7 t) (blockAt m c 8 t)

/-- The proof data on core `c`: the arrays as the region finds them; after the body at point `t` every input's buffer
    at its block and the output's at `outAt`; nothing carried from point to point beyond what every region keeps;
    nothing owed. The node embeddings are read through windows 0 and 1: each holds half of that array's share. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => outAt m c t
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = outAt m c t := by dsimp only [dats]

/-- An input window's staging buffer holds its block whenever the body runs, whether the block was fetched at that
    point or is still there from an earlier one (its index has then not moved). -/
theorem before_0 (c : Dev nD) (t : Fin cfg0.N) (d) : (dats m 0 c).before 0 t d = blockAt m c 0 t :=
  ((dats m 0 c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl) (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dats m 0 c).before 3 t d = blockAt m c 3 t :=
  ((dats m 0 c).before_in_eq_fetched 3 rfl (fun _ => rfl) (fun _ _ _ => rfl) (fun t => by rw [after_3]; unfold Dat.blockOf blockAt; rw [A_eq]; try rfl) t d).trans
    (by unfold Dat.fetched Dat.blockOf blockAt; rw [A_eq]; try rfl)
theorem before_4 (c : Dev nD) (t : Fin cfg0.N) (d) : (dats m 0 c).before 4 t d = blockAt m c 4 t :=
  ((dats m 0 c).before_in_eq_fetched 4 rfl (fun _ => rfl) (fun _ _ _ => rfl) (fun t => by rw [after_4]; unfold Dat.blockOf blockAt; rw [A_eq]; try rfl) t d).trans
    (by unfold Dat.fetched Dat.blockOf blockAt; rw [A_eq]; try rfl)
theorem before_5 (c : Dev nD) (t : Fin cfg0.N) (d) : (dats m 0 c).before 5 t d = blockAt m c 5 t :=
  ((dats m 0 c).before_in_eq_fetched 5 rfl (fun _ => rfl) (fun _ _ _ => rfl) (fun t => by rw [after_5]; unfold Dat.blockOf blockAt; rw [A_eq]; try rfl) t d).trans
    (by unfold Dat.fetched Dat.blockOf blockAt; rw [A_eq]; try rfl)
theorem before_6 (c : Dev nD) (t : Fin cfg0.N) (d) : (dats m 0 c).before 6 t d = blockAt m c 6 t :=
  ((dats m 0 c).before_in_eq_fetched 6 rfl (fun _ => rfl) (fun _ _ _ => rfl) (fun t => by rw [after_6]; unfold Dat.blockOf blockAt; rw [A_eq]; try rfl) t d).trans
    (by unfold Dat.fetched Dat.blockOf blockAt; rw [A_eq]; try rfl)
theorem before_7 (c : Dev nD) (t : Fin cfg0.N) (d) : (dats m 0 c).before 7 t d = blockAt m c 7 t :=
  ((dats m 0 c).before_in_eq_fetched 7 rfl (fun _ => rfl) (fun _ _ _ => rfl) (fun t => by rw [after_7]; unfold Dat.blockOf blockAt; rw [A_eq]; try rfl) t d).trans
    (by unfold Dat.fetched Dat.blockOf blockAt; rw [A_eq]; try rfl)
theorem before_8 (c : Dev nD) (t : Fin cfg0.N) (d) : (dats m 0 c).before 8 t d = blockAt m c 8 t :=
  ((dats m 0 c).before_in_eq_fetched 8 rfl (fun _ => rfl) (fun _ _ _ => rfl) (fun t => by rw [after_8]; unfold Dat.blockOf blockAt; rw [A_eq]; try rfl) t d).trans
    (by unfold Dat.fetched Dat.blockOf blockAt; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so `body_runs` applies; what the region keeps between
    points and what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c Set.univ (grid0.coords t) _ _ _ _ _ _ _ _ _ _ _ _ _ _ _ _ _ _ _ _
    (blockAt m c 0 t) (blockAt m c 1 t) (blockAt m c 2 t) (blockAt m c 3 t) (blockAt m c 4 t) (blockAt m c 5 t)
    (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the region, at every point. -/
theorem body_obligation (c : Dev nD) : BodyObligation (dats (F := F) m 0 c) (defs₀ (F := F)) Variants.none () Set.univ := fun t => by
  rw [bigSep_W0, bigSep_W0]
  exact body_at m c t

end Cert.KernelIdeal.Region

end
-- ==== Proof.IdealRun.lean ====
/-
  The region's launch (program `KernelIdeal`): how the buffers the host operations leave become the region's arrays and
  come back.

  Ten windows stand on nine buffers: windows 0 and 1 both read the array of node embeddings. Entering the region, that
  buffer's full share is dealt into its two halves, one per window; every other window takes its buffer whole. Leaving
  it, the two halves — both still at the contents the region found, an input being never written — join into the full
  share again. Between the buffers held whole and the windows' arrays nothing else changes, so the two descriptions
  entail each other at any contents.
-/
import proofs.«137493_j67302137528982_2_alg».proof.Proof.IdealBlocks

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Windows and buffers -/

/-- The nine distinct buffers behind the ten windows, each whole at the full share, one by one. -/
theorem bufs_listed (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v3) ↦{fullShare} W main_v3) ∗ (((c : Thread nD τ).loc main_v4) ↦{fullShare} W main_v4) ∗ (((c : Thread nD τ).loc main_v5) ↦{fullShare} W main_v5) ∗ (((c : Thread nD τ).loc main_v6) ↦{fullShare} W main_v6) ∗ (((c : Thread nD τ).loc main_v8) ↦{fullShare} W main_v8) ∗ (((c : Thread nD τ).loc main_v7) ↦{fullShare} W main_v7) ∗ (((c : Thread nD τ).loc main_v9) ↦{fullShare} W main_v9) ∗ (((c : Thread nD τ).loc main_v10) ↦{fullShare} W main_v10)) := by
  unfold Pipeline.arrBufs
  exact bigSep_eq_bigSepL_of_eq [main_arg0, main_v3, main_v4, main_v5, main_v6, main_v8, main_v7, main_v9, main_v10] (by decide) (by decide) _

/-- The ten windows' arrays at contents read off `W`, one by one: the node embeddings twice, at the two halves. -/
theorem arrays_listed (c : Dev nD) (W : (b : Ref sig .tc) → Buf (Elt F) ((c : Thread nD τ).loc b)) :
    ((dats m 0 c).arrays (fun w => W (Pipeline.arrRef spec0 w)) : sProp 𝕄)
      = iprop((((c : Thread nD τ).loc main_arg0) ↦{fullShare.left} W main_arg0) ∗ (((c : Thread nD τ).loc main_arg0) ↦{fullShare.right} W main_arg0) ∗ (((c : Thread nD τ).loc main_v3) ↦{fullShare} W main_v3) ∗ (((c : Thread nD τ).loc main_v4) ↦{fullShare} W main_v4) ∗ (((c : Thread nD τ).loc main_v5) ↦{fullShare} W main_v5) ∗ (((c : Thread nD τ).loc main_v6) ↦{fullShare} W main_v6) ∗ (((c : Thread nD τ).loc main_v8) ↦{fullShare} W main_v8) ∗ (((c : Thread nD τ).loc main_v7) ↦{fullShare} W main_v7) ∗ (((c : Thread nD τ).loc main_v9) ↦{fullShare} W main_v9) ∗ (((c : Thread nD τ).loc main_v10) ↦{fullShare} W main_v10)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ]
  rfl

/-- Entering: the buffers held whole give the windows' arrays. -/
theorem arrays_of_bufs (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dats m 0 c).arrays (fun w => W (Pipeline.arrRef spec0 w)) := by
  rw [bufs_listed, arrays_listed]
  iintro ⟨H0, Hr⟩
  ihave H0 := (pointsTo_share (PosShare.mem_left_op_right fullShare)).1 $$ H0
  icases H0 with ⟨Hl, Hrt⟩
  isplitl [Hl]; · iexact Hl
  isplitl [Hrt]; · iexact Hrt
  iexact Hr

/-- Leaving: the windows' arrays give the buffers back whole. -/
theorem bufs_of_arrays (c : Dev nD) (W : (b : Ref sig .tc) → Buf (Elt F) ((c : Thread nD τ).loc b)) :
    ((dats m 0 c).arrays (fun w => W (Pipeline.arrRef spec0 w)) : sProp 𝕄)
      ⊢ Pipeline.arrBufs (Ix := Unit) (Name := ℕ) (U := UR sig nD τ) (Lvl := ℕ) spec0 c W := by
  rw [bufs_listed, arrays_listed]
  iintro ⟨Hl, Hrt, Hr⟩
  isplitl [Hl Hrt]
  · iapply (pointsTo_share (PosShare.mem_left_op_right fullShare)).2
    isplitl [Hl]; · iexact Hl
    iexact Hrt
  iexact Hr

/-! ## The buffers when the region is left, and after the last host operation -/

/-- Core `c`'s buffers when the region is left: as the region found them, except the result array, which holds what the
    region wrote into it block by block. -/
def Vout (c : Dev nD) : Valuation τ sig (Elt F) :=
  Function.update (V0 m c) (Proc.devRef .tc main_v10) ((dats m 0 c).arrAt 9 cfg0.N)

/-- Core `c`'s buffers at the end: the last host operation (the result with a unit axis added) run from `Vout`. -/
def Vend (c : Dev nD) : Valuation τ sig (Elt F) := StableHlo.after (List.flatten [hostOps1]) (Vout m c)

/-- Only the output window stands on the result array. -/
theorem only_out : ∀ w : Fin cfg0.W, w ≠ 9 → Pipeline.arrRef spec0 w ≠ main_v10 := by decide

/-- When the region is left every window's array holds what `Vout` says: an input is never written, the output holds
    what the region wrote. -/
theorem arrs_out (c : Dev nD) :
    (fun w => (dats m 0 c).arrAt w cfg0.N) = fun w => Vout m c (Proc.devRef .tc (Pipeline.arrRef spec0 w)) := by
  funext w
  by_cases h : w = 9
  · subst h
    exact (Function.update_self (f := V0 m c) (Proc.devRef .tc main_v10) ((dats m 0 c).arrAt 9 cfg0.N)).symm
  · have hin : (cfg0.win w).isOut = false := by
      revert h; revert w; decide
    rw [(dats m 0 c).arrAt_in w hin, A_eq]
    exact (Function.update_of_ne (StableHlo.devRef_ne_of_ne (only_out w h)) _ _).symm

/-- The last host operation writes no window's array. -/
theorem tail_keeps (c : Dev nD) (w : Fin cfg0.W) :
    Vend m c (Proc.devRef .tc (Pipeline.arrRef spec0 w)) = Vout m c (Proc.devRef .tc (Pipeline.arrRef spec0 w)) :=
  StableHlo.after_of_forall_not_mem (b := Proc.devRef .tc (Pipeline.arrRef spec0 w)) _ _ (by
    intro op hop
    simp only [hostOps1, List.flatten_cons, List.flatten_nil, List.append_nil, List.mem_cons, List.mem_nil_iff, or_false] at hop
    subst hop
    simp only [StableHlo.unary_writes, Finset.mem_singleton]
    revert w; intro w
    exact StableHlo.devRef_ne_of_ne (by revert w; decide))

/-! ## The host operation after the region -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- All of core `c`'s unscoped buffers held whole at `W` are the nine buffers behind the windows and the rest. -/
theorem held_split (c : Dev nD) (W : Valuation τ sig (Elt F)) :
    (StableHlo.held (c : Thread nD τ) (Pipeline.ucRefs τ sig) W : sProp 𝕄)
      = iprop(Pipeline.arrBufs spec0 c (fun b => W (Proc.devRef .tc b)) ∗ Pipeline.unscopedRest spec0 c (fun b => W (Proc.devRef .tc b))) :=
  (Pipeline.unscopedBufs_held (Ix := Unit) (Name := ℕ) (U := UR sig nD τ) (Lvl := ℕ) c W).symm.trans
    (Pipeline.unscopedBufs_split₀ cfgs 0 winFacts₀0.arr_unscoped c _)

/-- The buffers no window stands on are the same at `Vout` as the region found them. -/
theorem rest_out (c : Dev nD) :
    (Pipeline.unscopedRest (Ix := Unit) (Name := ℕ) (U := UR sig nD τ) (Lvl := ℕ) spec0 c (V m c) : sProp 𝕄)
      = Pipeline.unscopedRest spec0 c (fun b => Vout m c (Proc.devRef .tc b)) := by
  classical
  unfold Pipeline.unscopedRest
  exact bigSep_congr fun b hb => by
    have e : Vout m c (Proc.devRef .tc b) = V m c b :=
      Function.update_of_ne (StableHlo.devRef_ne_of_ne fun e => (Finset.mem_sdiff.mp hb).2 (Finset.mem_image.mpr ⟨9, Finset.mem_univ _, e.symm⟩)) _ _
    exact congrArg (fun x => ((((c : Thread nD τ).loc b) ↦{fullShare} x) : sProp 𝕄)) e.symm

set_option backward.isDefEq.respectTransparency.types false in
/-- From the region's exit — the windows' arrays at their final contents, every other unscoped buffer as the region found
    it — the last host operation runs, and hands back the arrays unchanged and the other buffers at `Vend`. -/
theorem tail_runs (c : Dev nD) (Q' : PUnit → sProp 𝕄) :
    iprop((iprop((dats m 0 c).arrays (fun w => (dats m 0 c).arrAt w cfg0.N)
            ∗ Pipeline.unscopedRest spec0 c (fun b => Vend m c (Proc.devRef .tc b))) -∗ Q' ⟨⟩)
        ∗ boundary (c : Thread nD τ) ∗ (dats m 0 c).arrays (fun w => (dats m 0 c).arrAt w cfg0.N)
        ∗ Pipeline.unscopedRest spec0 c (V m c))
      ⊢ wp frame (wpE (Pipeline.defs (fun q => (cfgs q).toPCfg (Val := Elt F)) (defs₀ (F := F))) (Variants.lift Variants.none) (c : Thread nD τ) none) Set.univ
          (Pipeline.chain [StableHlo.seq hostOps1]) Q' := by
  rw [arrs_out m c, rest_out m c, ← List.append_nil [StableHlo.seq hostOps1]]
  iintro ⟨Hk, Hb, Ha, Hz⟩
  ihave Hbufs := (bufs_of_arrays m c (fun b => Vout m c (Proc.devRef .tc b))) $$ Ha
  iapply (Pipeline.wp_seqs_then (fun q => (cfgs q).toPCfg (Val := Elt F)) defs₀ Variants.none c (Pipeline.ucRefs τ sig) [] [hostOps1] tail_sub tail_fresh (Vout m c)) $$ [Hb Hbufs Hz]
  · rw [held_split]
    isplitl [Hb]; · iexact Hb
    isplitl [Hbufs]; · iexact Hbufs
    iexact Hz
  iintro Hb
  rw [Pipeline.chain_nil, wp_pure, held_split]
  imodintro
  iapply Hk
  icases Hb with ⟨-, Hbufs, Hz⟩
  isplitl [Hbufs]
  · rw [show (fun w => Vout m c (Proc.devRef .tc (Pipeline.arrRef spec0 w)))
        = fun w => (fun b => Vend m c (Proc.devRef .tc b)) (Pipeline.arrRef spec0 w) from funext fun w => (tail_keeps m c w).symm]
    iapply (arrays_of_bufs m c (fun b => Vend m c (Proc.devRef .tc b)))
    iexact Hbufs
  iexact Hz

/-! ## The run -/

/-- What a final state holds: every window's array at what the region's write-backs make of it (an input as launched
    into the region, the result array block by block), every other unscoped buffer at `Vend`. -/
def Ends (r : PUnit × MemSt nD τ sig (Elt F)) : Prop :=
  ∀ c : Dev nD,
    (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = Vend m c (Proc.devRef .tc b)

set_option backward.isDefEq.respectTransparency.types false in
/-- At the compiled mesh, from any memory with zero counters: every weakly fair execution of @main on the TensorCores
    terminates, nothing faulting, and every final state is as `Ends` says. The array of node embeddings enters the
    region as two half shares, one per window on it, and leaves it whole. -/
theorem run_main : θ_run defs (onTc (τ := τ) (main (F := F))) (s₀ m ρ) (Ends m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [show (fun w => (dats m 0 c).arrAt w 0) = fun w => (V m c) (Pipeline.arrRef spec0 w) from funext fun w => A_eq m c w]
      exact arrays_of_bufs m c (V m c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vend m c (Proc.devRef .tc b)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_runs m c Q')
    (QY := fun c s => ∀ b ∈ Pipeline.restRefs sig spec0, s.mem ((c : Thread nD τ).loc b) = Vend m c (Proc.devRef .tc b))
    (hY := fun c s' => by
      iintro ⟨-, HU, HSI⟩
      unfold Pipeline.unscopedRest
      imodintro
      iapply (pointsTo_read_all (Pipeline.restRefs sig spec0) (fun b => (c : Thread nD τ).loc b) (fun b => Vend m c (Proc.devRef .tc b)) s')
      isplitl [HU] <;> iassumption)
    (hQ := fun s h c => ⟨(h c).1, (h c).2.2⟩)

end Cert.KernelIdeal.Region

end
-- ==== Proof.IdealFrame.lean ====
/-
  What the run leaves (program `KernelIdeal`): the arguments and the result.

  No host operation writes an argument array, and the region writes back only its output window, so every argument
  ends as launched: the node embeddings because an input window's array is never written, the others because they
  bypass the region and the host operations around it only read them. The result is the last host operation — a unit
  axis added — applied to what the region's write-backs made of its output array.
-/
import proofs.«137493_j67302137528982_2_alg».proof.Proof.IdealRun

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arguments when the region is entered -/

/-- No host operation before the region writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arguments at the end -/

/-- Argument 1 bypasses the region and the last host operation does not write it. -/
theorem Vend_arg1 (c : Dev nD) : Vend m c (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg1 m c))

/-- Argument 2 bypasses the region and the last host operation does not write it. -/
theorem Vend_arg2 (c : Dev nD) : Vend m c (Proc.devRef .tc main_arg2) = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg2 m c))

/-- Argument 3 bypasses the region and the last host operation does not write it. -/
theorem Vend_arg3 (c : Dev nD) : Vend m c (Proc.devRef .tc main_arg3) = m ((c : Thread nD τ).loc main_arg3) :=
  (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg3 m c))

/-- Argument 4 bypasses the region and the last host operation does not write it. -/
theorem Vend_arg4 (c : Dev nD) : Vend m c (Proc.devRef .tc main_arg4) = m ((c : Thread nD τ).loc main_arg4) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg4 m c))

/-- Argument 5 bypasses the region and the last host operation does not write it. -/
theorem Vend_arg5 (c : Dev nD) : Vend m c (Proc.devRef .tc main_arg5) = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg5 m c))

/-- Argument 6 bypasses the region and the last host operation does not write it. -/
theorem Vend_arg6 (c : Dev nD) : Vend m c (Proc.devRef .tc main_arg6) = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))).trans
  ((Function.update_of_ne (StableHlo.devRef_ne_of_ne (by decide)) _ _).trans (V_arg6 m c))

/-- The result: the last host operation applied to what the region left in its output array. -/
theorem Vend_result (c : Dev nD) :
    Vend m c (Proc.devRef .tc main_v11)
      = (broadcastInDim S8x128x128x1 ![0, 1, 2] bcast_S8x128x128_S8x128x128x1_0_1_2 ((dats m 0 c).arrAt 9 cfg0.N) : (⟨S8x128x128x1, .f32⟩ : BufTy).Contents (Elt F)) := by
  unfold Vend
  simp only [hostOps1, List.flatten_cons, List.flatten_nil, List.append_nil]
  after_results
  unfold Vout
  rw [Function.update_self]

/-! ## The run read at the arguments and the result -/

/-- Every weakly fair execution of @main terminates, nothing faulting, with the result at the last host operation of
    the region's output array and every argument as launched. -/
theorem run_result : θ_run defs (onTc (τ := τ) (main (F := F))) ⟨m, fun _ => 0, ρ⟩ (fun r => ∀ c : Dev nD,
      r.2.mem ((c.tc : Thread nD τ).loc main_v11)
        = (broadcastInDim S8x128x128x1 ![0, 1, 2] bcast_S8x128x128_S8x128x128x1_0_1_2 ((dats m 0 c).arrAt 9 cfg0.N) : (⟨S8x128x128x1, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v11 (by decide)).trans (Vend_result m c),
     ((h c).1 0).trans (((dats m 0 c).arrAt_in 0 rfl _).trans ((A_eq m c 0).trans (V_arg0 m c))),
     ((h c).2 main_arg1 (by decide)).trans (Vend_arg1 m c),
     ((h c).2 main_arg2 (by decide)).trans (Vend_arg2 m c),
     ((h c).2 main_arg3 (by decide)).trans (Vend_arg3 m c),
     ((h c).2 main_arg4 (by decide)).trans (Vend_arg4 m c),
     ((h c).2 main_arg5 (by decide)).trans (Vend_arg5 m c),
     ((h c).2 main_arg6 (by decide)).trans (Vend_arg6 m c)⟩) (run_main m ρ)

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.KernelIdeal.Region

end
-- ==== Proof.Spec.lean ====
/-
  What the pairwise readout computes, as one function of the argument arrays, index by index, on the
  extended reals.

  For a batch row `b` and a pair of nodes `(i, j)`:
    * the mean of the batch's node embeddings, feature by feature, `(∑ₙ x[b,n,f]) · 2⁻⁷` (there are 128 nodes);
    * the pooled projection `∑_f mean[b,f] · Wp[f,g]`;
    * the first layer applied to the rectified triple (pooled, node i, node j): its 768 weight rows fall into
      three bands of 256, rows 0–255 meeting the pooled vector, rows 256–511 node `i`, rows 512–767 node `j`,
      so the pre-activation is the sum of three 256-term sums and the bias;
    * the rectified hidden vector against the single output column of `W2`, plus `b2`.
  The grouping of the four summands of the pre-activation is the one in which a block of the computation
  adds them: the `i` term to (the `j` term plus the pooled term, plus the bias). Addition on the extended
  reals is commutative and associative, so any other grouping is the same number.

  `blockOut` is the same function stated over what one block of the computation is handed: all 128 node rows
  of one batch row, 64 consecutive node rows of it, and the weights already cut into their bands.
-/
import Idealize.ShloMosaic.PureOps.Ideal
import Idealize.ShloMosaic.Lib.ValueIdx

noncomputable section

open scoped BigOperators

namespace Cert.Readout

open Idealize.ShloMosaic Idealize.ShloMosaic.ValueIdx

/-- The reciprocal of the number of nodes, `2⁻⁷`, as the 32-bit pattern that denotes it. -/
abbrev invN : EReal := Ideal.ofBits .f32 0x3C000000#32

/-- Row `band·256 + f` of the first layer's 768 weight rows. -/
abbrev bandRow (band : Fin 3) (f : Fin 256) : Fin 768 := ⟨band.val * 256 + f.val, by omega⟩

section Whole

variable (x : (⟨3, ![8, 128, 256]⟩ : Shape).Idx → EReal) (wp : (⟨2, ![256, 256]⟩ : Shape).Idx → EReal)
  (w1 : (⟨2, ![768, 256]⟩ : Shape).Idx → EReal) (b1 : (⟨1, ![256]⟩ : Shape).Idx → EReal)
  (w2 : (⟨2, ![256, 1]⟩ : Shape).Idx → EReal) (b2 : (⟨1, ![1]⟩ : Shape).Idx → EReal)

/-- The mean over the 128 nodes of batch row `b`, at feature `f`. -/
def mean (b : Fin 8) (f : Fin 256) : EReal := (∑ n : Fin 128, x (ix3 b n f)) * invN

/-- The pooled projection of batch row `b`, at output feature `g`. -/
def pooled (b : Fin 8) (g : Fin 256) : EReal := ∑ f : Fin 256, mean x b f * wp (ix2 f g)

/-- The first layer's band 0 against the rectified pooled vector. -/
def termPooled (b : Fin 8) (h : Fin 256) : EReal := ∑ g : Fin 256, max (pooled x wp b g) 0 * w1 (ix2 (bandRow 0 g) h)

/-- The first layer's band `band` against the rectified embedding of node `n`. -/
def termNode (band : Fin 3) (b : Fin 8) (n : Fin 128) (h : Fin 256) : EReal :=
  ∑ f : Fin 256, max (x (ix3 b n f)) 0 * w1 (ix2 (bandRow band f) h)

/-- The rectified hidden vector of the pair `(i, j)` of batch row `b`. -/
def hidden (b : Fin 8) (i j : Fin 128) (h : Fin 256) : EReal :=
  max (termNode x w1 1 b i h + ((termNode x w1 2 b j h + termPooled x wp w1 b h) + b1 (ix1 h))) 0

/-- The readout of the pair `(i, j)` of batch row `b`. -/
def out (b : Fin 8) (i j : Fin 128) : EReal :=
  (∑ h : Fin 256, hidden x wp w1 b1 b i j h * w2 (ix2 h 0)) + b2 (ix1 0)

/-- The result array, of shape [8, 128, 128, 1]. -/
def result : (⟨4, ![8, 128, 128, 1]⟩ : Shape).Idx → EReal := fun i => out x wp w1 b1 w2 b2 (i 0) (i 1) (i 2)

end Whole

section Block

variable (xa : (⟨3, ![1, 128, 256]⟩ : Shape).Idx → EReal) (xi : (⟨3, ![1, 64, 256]⟩ : Shape).Idx → EReal)
  (wp w1p w1i w1j : (⟨2, ![256, 256]⟩ : Shape).Idx → EReal)
  (w2 b1 : (⟨2, ![1, 256]⟩ : Shape).Idx → EReal) (b2 : (⟨2, ![1, 1]⟩ : Shape).Idx → EReal)

/-- The mean over the block's 128 node rows. -/
def blockMean (f : Fin 256) : EReal := (∑ n : Fin 128, xa (ix3 0 n f)) * invN

def blockPooled (g : Fin 256) : EReal := ∑ f : Fin 256, blockMean xa f * wp (ix2 f g)

def blockTermPooled (h : Fin 256) : EReal := ∑ g : Fin 256, max (blockPooled xa wp g) 0 * w1p (ix2 g h)

/-- The `j` band against node row `q` of the 128. -/
def blockTermJ (q : Fin 128) (h : Fin 256) : EReal := ∑ f : Fin 256, max (xa (ix3 0 q f)) 0 * w1j (ix2 f h)

/-- The `i` band against node row `p` of the 64. -/
def blockTermI (p : Fin 64) (h : Fin 256) : EReal := ∑ f : Fin 256, max (xi (ix3 0 p f)) 0 * w1i (ix2 f h)

def blockHidden (p : Fin 64) (q : Fin 128) (h : Fin 256) : EReal :=
  max (blockTermI xi w1i p h + ((blockTermJ xa w1j q h + blockTermPooled xa wp w1p h) + b1 (ix2 0 h))) 0

/-- What one block of the computation writes at row `p` of its 64 and column `q`. -/
def blockOut (p : Fin 64) (q : Fin 128) : EReal :=
  (∑ h : Fin 256, blockHidden xa xi wp w1p w1i w1j b1 p q h * w2 (ix2 0 h)) + b2 (ix2 0 0)

end Block

end Cert.Readout

end
-- ==== Proof.RefLaws.lean ====
/-
  Two laws that join the reference's arithmetic to the specification's.

  Dividing by 128.  The reference divides the sum over the 128 nodes by the number 128; the specification
  multiplies the same sum by 2⁻⁷.  On the extended reals a quotient by a nonzero real is the product with its
  reciprocal, also when the dividend is infinite, so the two agree for every value of the sum.  The two
  32-bit patterns involved, that of 128 and that of 2⁻⁷, are evaluated here once.

  Three bands.  A sum over the 768 rows of the first layer's weights is the sum over rows 0–255, plus the sum
  over rows 256–511, plus the sum over rows 512–767.  This is only a regrouping of a finite sum in a
  commutative monoid; nothing has to be finite.
-/
import proofs.«137493_j67302137528982_2_alg».proof.Proof.Spec
import Idealize.ShloMosaic.PureOps.Ideal.Laws
import Mathlib.Algebra.BigOperators.Fin

noncomputable section

open scoped BigOperators

namespace Cert.Readout.Ref

open Idealize.ShloMosaic Cert.Readout

/-- The pattern `0x43000000` denotes the real number 128. -/
theorem ofBits_128 : Ideal.ofBits .f32 0x43000000#32 = ((128 : ℝ) : EReal) := by
  simp [Ideal.ofBits, Ideal.ieee, -EReal.coe_mul]; norm_num

/-- The pattern `0x3C000000` denotes the real number 1/128. -/
theorem invN_eq : invN = ((1 / 128 : ℝ) : EReal) := by
  simp [invN, Ideal.ofBits, Ideal.ieee, -EReal.coe_mul]; norm_num

/-- A quotient by 128 is the product with 2⁻⁷, for every extended real. -/
theorem div_128 (y : EReal) : Ideal.div y (Ideal.ofBits .f32 0x43000000#32) = y * invN := by
  rw [ofBits_128, invN_eq]
  exact Ideal.div_coe (by norm_num) y

/-- A sum over 768 rows is the sum of the three sums over its bands of 256 rows. -/
theorem sum_bands {M : Type*} [AddCommMonoid M] (g : Fin 768 → M) :
    ∑ k, g k = (∑ f : Fin 256, g (bandRow 0 f)) + (∑ f : Fin 256, g (bandRow 1 f)) + ∑ f : Fin 256, g (bandRow 2 f) := by
  have e : ∀ h : Fin (256 + 256 + 256) → M,
      ∑ k, h k = (∑ f : Fin 256, h (Fin.castAdd 256 (Fin.castAdd 256 f)))
        + (∑ f : Fin 256, h (Fin.castAdd 256 (Fin.natAdd 256 f))) + ∑ f : Fin 256, h (Fin.natAdd (256 + 256) f) :=
    fun h => by rw [Fin.sum_univ_add, Fin.sum_univ_add]
  refine (e g).trans ?_
  refine congrArg₂ (· + ·) (congrArg₂ (· + ·) ?_ ?_) ?_
  · exact Finset.sum_congr rfl fun f _ => congrArg g (Fin.ext (by simp [bandRow] <;> omega))
  · exact Finset.sum_congr rfl fun f _ => congrArg g (Fin.ext (by simp [bandRow] <;> omega))
  · exact Finset.sum_congr rfl fun f _ => congrArg g (Fin.ext (by simp [bandRow] <;> omega))

/-- The four summands of the first layer's pre-activation, regrouped the way the specification adds them. -/
theorem regroup (tp ti tj c : EReal) : tp + ti + tj + c = ti + ((tj + tp) + c) := by
  abel

end Cert.Readout.Ref

end
-- ==== Proof.RefConcat.lean ====
/-
  The reference lays three arrays of shape [8,128,128,256] end to end along the last axis, giving an array of
  shape [8,128,128,768].  An element of the result comes from exactly one of the three pieces, chosen by its
  last coordinate: coordinate `band·256 + f` reads piece `band` at last coordinate `f`, the other three
  coordinates unchanged.  Stated for any three pieces and any element type.
-/
import proofs.«137493_j67302137528982_2_alg».proof.Proof.Spec
import Idealize.ShloMosaic.Lib.Pipeline.Value
import Idealize.ShloMosaic.Lib.ValueIdx

noncomputable section

namespace Cert.Readout.Ref

open Idealize.ShloMosaic Idealize.ShloMosaic.ValueIdx Cert.Readout

section
variable {α : Type} (y0 y1 y2 : (⟨4, ![8, 128, 128, 256]⟩ : Shape).Idx → α)
  (h : Shape.Concatenates [(⟨4, ![8, 128, 128, 256]⟩ : Shape), ⟨4, ![8, 128, 128, 256]⟩, ⟨4, ![8, 128, 128, 256]⟩]
    ⟨4, ![8, 128, 128, 768]⟩ 3)

/-- Away from the last axis the two indices have the same coordinates. -/
private theorem off_axis (b : Fin 8) (p q : Fin 128) (k : Fin 768) (f : Fin 256) (c : Fin 4) (hc : c ≠ 3) :
    ((ix4 b p q f : (⟨4, ![8, 128, 128, 256]⟩ : Shape).Idx) c).val
      = ((ix4 b p q k : (⟨4, ![8, 128, 128, 768]⟩ : Shape).Idx) c).val := by
  match c, hc with
  | ⟨0, _⟩, _ => rfl
  | ⟨1, _⟩, _ => rfl
  | ⟨2, _⟩, _ => rfl
  | ⟨3, _⟩, hc => exact absurd rfl hc

/-- Rows 0–255 of the joined axis read the first piece. -/
theorem concat_band0 (b : Fin 8) (p q : Fin 128) (f : Fin 256) :
    concatenate ⟨4, ![8, 128, 128, 768]⟩ 3 [⟨⟨4, ![8, 128, 128, 256]⟩, y0⟩, ⟨⟨4, ![8, 128, 128, 256]⟩, y1⟩,
      ⟨⟨4, ![8, 128, 128, 256]⟩, y2⟩] h (ix4 b p q (bandRow 0 f)) = y0 (ix4 b p q f) :=
  concatenate_apply_piece (t := ⟨4, ![8, 128, 128, 768]⟩) (a := 3)
    (xs := [⟨⟨4, ![8, 128, 128, 256]⟩, y0⟩, ⟨⟨4, ![8, 128, 128, 256]⟩, y1⟩, ⟨⟨4, ![8, 128, 128, 256]⟩, y2⟩]) h
    (ix4 b p q (bandRow 0 f)) 0 (by simp) ⟨4, ![8, 128, 128, 256]⟩ y0 rfl rfl 0 rfl (ix4 b p q f)
    (fun c hc => off_axis b p q _ f c hc) (by show 0 + f.val = 0 * 256 + f.val; omega)

/-- Rows 256–511 read the second piece. -/
theorem concat_band1 (b : Fin 8) (p q : Fin 128) (f : Fin 256) :
    concatenate ⟨4, ![8, 128, 128, 768]⟩ 3 [⟨⟨4, ![8, 128, 128, 256]⟩, y0⟩, ⟨⟨4, ![8, 128, 128, 256]⟩, y1⟩,
      ⟨⟨4, ![8, 128, 128, 256]⟩, y2⟩] h (ix4 b p q (bandRow 1 f)) = y1 (ix4 b p q f) :=
  concatenate_apply_piece (t := ⟨4, ![8, 128, 128, 768]⟩) (a := 3)
    (xs := [⟨⟨4, ![8, 128, 128, 256]⟩, y0⟩, ⟨⟨4, ![8, 128, 128, 256]⟩, y1⟩, ⟨⟨4, ![8, 128, 128, 256]⟩, y2⟩]) h
    (ix4 b p q (bandRow 1 f)) 1 (by simp) ⟨4, ![8, 128, 128, 256]⟩ y1 rfl rfl 256 rfl (ix4 b p q f)
    (fun c hc => off_axis b p q _ f c hc) (by show 256 + f.val = 1 * 256 + f.val; omega)

/-- Rows 512–767 read the third piece. -/
theorem concat_band2 (b : Fin 8) (p q : Fin 128) (f : Fin 256) :
    concatenate ⟨4, ![8, 128, 128, 768]⟩ 3 [⟨⟨4, ![8, 128, 128, 256]⟩, y0⟩, ⟨⟨4, ![8, 128, 128, 256]⟩, y1⟩,
      ⟨⟨4, ![8, 128, 128, 256]⟩, y2⟩] h (ix4 b p q (bandRow 2 f)) = y2 (ix4 b p q f) :=
  concatenate_apply_piece (t := ⟨4, ![8, 128, 128, 768]⟩) (a := 3)
    (xs := [⟨⟨4, ![8, 128, 128, 256]⟩, y0⟩, ⟨⟨4, ![8, 128, 128, 256]⟩, y1⟩, ⟨⟨4, ![8, 128, 128, 256]⟩, y2⟩]) h
    (ix4 b p q (bandRow 2 f)) 2 (by simp) ⟨4, ![8, 128, 128, 256]⟩ y2 rfl rfl 512 rfl (ix4 b p q f)
    (fun c hc => off_axis b p q _ f c hc) (by show 512 + f.val = 2 * 256 + f.val; omega)

end

end Cert.Readout.Ref

end
-- ==== Proof.RefPooled.lean ====
/-
  The first stages of the reference, read at an index: the mean of a batch row's node embeddings and its
  pooled projection.

  The reference sums the 128 node rows starting from the zero pattern (which denotes 0, so the sum is the plain
  sum) and divides by the pattern of 128; by the division law that is the sum times 2⁻⁷, the specification's
  mean.  The projection is a contraction over the 256 features of the mean against the projection weights,
  which is the specification's pooled vector term by term.
-/
import proofs.«137493_j67302137528982_2_alg».proof.Proof.Gen.ReferenceIdeal.Read
import proofs.«137493_j67302137528982_2_alg».proof.Proof.Spec
import proofs.«137493_j67302137528982_2_alg».proof.Proof.RefLaws

noncomputable section

open scoped BigOperators

namespace Cert.Readout.Ref

open Idealize.ShloMosaic Idealize.ShloMosaic.ValueIdx Cert.Readout Cert.ReferenceIdeal Cert.ReferenceIdeal.Read

variable (x : (⟨S8x128x256, .f32⟩ : BufTy).Contents (Elt Ideal)) (wp : (⟨S256x256, .f32⟩ : BufTy).Contents (Elt Ideal))

/-- The quotient stage at batch row `b`, feature `f`, is the mean over the nodes. -/
theorem mean_eq (b : Fin 8) (f : Fin 256) : val_main_v6 (F := Ideal) x (ix2 b f) = mean x b f := by
  have e : ∀ n : Fin 128, idx_main_v4 (ix2 b f) n = ix3 b n f := fun n => funext fun a => Fin.ext (by
    match a with | ⟨0, _⟩ => rfl | ⟨1, _⟩ => rfl | ⟨2, _⟩ => rfl)
  rw [val_main_v6_apply, val_main_v4_apply, val_main_v5_apply, val_main_cst_0_apply, val_main_cst_apply]
  simp only [e, Ideal.hostDivf_def, Ideal.ofBits_def, Ideal.ofBits_zero_f32, zero_add]
  exact div_128 _

/-- The projection stage at batch row `b`, output feature `g`, is the pooled projection. -/
theorem pooled_eq (b : Fin 8) (g : Fin 256) : val_main_v7 (F := Ideal) x wp (ix2 b g) = pooled x wp b g := by
  have el : ∀ k : Fin 256, lidx_main_v7 (ix2 b g) k = ix2 b k := fun k => funext fun a => Fin.ext (by
    match a with | ⟨0, _⟩ => rfl | ⟨1, _⟩ => rfl)
  have er : ∀ k : Fin 256, ridx_main_v7 (ix2 b g) k = ix2 k g := fun k => funext fun a => Fin.ext (by
    match a with | ⟨0, _⟩ => rfl | ⟨1, _⟩ => rfl)
  rw [val_main_v7_apply]
  simp only [el, er, mean_eq]
  rfl

end Cert.Readout.Ref

end
-- ==== Proof.RefHidden.lean ====
/-
  The middle stages of the reference, read at an index: the rectified hidden vector of a pair of nodes.

  The reference builds, for every pair (i, j) of nodes of a batch row, a vector of 768 entries: the pooled
  projection (the same for every pair), node i's embedding, node j's embedding, laid end to end; rectifies it;
  and contracts it against the 768 rows of the first layer's weights.  Cutting that sum of 768 terms into its
  three bands of 256 gives the specification's three terms: the pooled band, the band of node i and the band of
  node j.  Adding the bias and rectifying gives the specification's hidden vector once the four summands are
  regrouped; addition on the extended reals is commutative and associative, so no finiteness is needed.
-/
import proofs.«137493_j67302137528982_2_alg».proof.Proof.Gen.ReferenceIdeal.Read
import proofs.«137493_j67302137528982_2_alg».proof.Proof.Spec
import proofs.«137493_j67302137528982_2_alg».proof.Proof.RefLaws
import proofs.«137493_j67302137528982_2_alg».proof.Proof.RefConcat
import proofs.«137493_j67302137528982_2_alg».proof.Proof.RefPooled

noncomputable section

open scoped BigOperators

namespace Cert.Readout.Ref

open Idealize.ShloMosaic Idealize.ShloMosaic.ValueIdx Cert.Readout Cert.ReferenceIdeal Cert.ReferenceIdeal.Read

variable (x : (⟨S8x128x256, .f32⟩ : BufTy).Contents (Elt Ideal)) (wp : (⟨S256x256, .f32⟩ : BufTy).Contents (Elt Ideal))
  (w1 : (⟨S768x256, .f32⟩ : BufTy).Contents (Elt Ideal)) (b1 : (⟨S256, .f32⟩ : BufTy).Contents (Elt Ideal))

/-- The first piece is the pooled projection, whatever the pair of nodes. -/
theorem piece_pooled (b : Fin 8) (p q : Fin 128) (g : Fin 256) :
    val_main_v9 (F := Ideal) x wp (ix4 b p q g) = pooled x wp b g := by
  have e : idx_main_v8 (idx_main_v9 (ix4 b p q g)) = ix2 b g := funext fun a => Fin.ext (by
    match a with | ⟨0, _⟩ => rfl | ⟨1, _⟩ => rfl)
  rw [val_main_v9_apply, val_main_v8_apply, e, pooled_eq]

/-- The second piece is the embedding of the pair's first node. -/
theorem piece_first (b : Fin 8) (p q : Fin 128) (f : Fin 256) :
    val_main_v1 (F := Ideal) x (ix4 b p q f) = x (ix3 b p f) := by
  rw [val_main_v1_apply, val_main_v0_apply]
  exact congrArg x (funext fun a => Fin.ext (by match a with | ⟨0, _⟩ => rfl | ⟨1, _⟩ => rfl | ⟨2, _⟩ => rfl))

/-- The third piece is the embedding of the pair's second node. -/
theorem piece_second (b : Fin 8) (p q : Fin 128) (f : Fin 256) :
    val_main_v3 (F := Ideal) x (ix4 b p q f) = x (ix3 b q f) := by
  rw [val_main_v3_apply, val_main_v2_apply]
  exact congrArg x (funext fun a => Fin.ext (by match a with | ⟨0, _⟩ => rfl | ⟨1, _⟩ => rfl | ⟨2, _⟩ => rfl))

/-- The rectified triple on rows 0–255: the rectified pooled projection. -/
theorem relu_band0 (b : Fin 8) (p q : Fin 128) (g : Fin 256) :
    val_main_v11 (F := Ideal) x wp (ix4 b p q (bandRow 0 g)) = max (pooled x wp b g) 0 := by
  rw [val_main_v11_apply, val_main_call0_v0_apply, val_main_call0_cst_apply]
  unfold val_main_v10
  rw [concat_band0, piece_pooled]
  simp only [Ideal.maximumf_def, Ideal.ofBits_def, Ideal.ofBits_zero_f32]

/-- The rectified triple on rows 256–511: the rectified embedding of the first node. -/
theorem relu_band1 (b : Fin 8) (p q : Fin 128) (f : Fin 256) :
    val_main_v11 (F := Ideal) x wp (ix4 b p q (bandRow 1 f)) = max (x (ix3 b p f)) 0 := by
  rw [val_main_v11_apply, val_main_call0_v0_apply, val_main_call0_cst_apply]
  unfold val_main_v10
  rw [concat_band1, piece_first]
  simp only [Ideal.maximumf_def, Ideal.ofBits_def, Ideal.ofBits_zero_f32]

/-- The rectified triple on rows 512–767: the rectified embedding of the second node. -/
theorem relu_band2 (b : Fin 8) (p q : Fin 128) (f : Fin 256) :
    val_main_v11 (F := Ideal) x wp (ix4 b p q (bandRow 2 f)) = max (x (ix3 b q f)) 0 := by
  rw [val_main_v11_apply, val_main_call0_v0_apply, val_main_call0_cst_apply]
  unfold val_main_v10
  rw [concat_band2, piece_second]
  simp only [Ideal.maximumf_def, Ideal.ofBits_def, Ideal.ofBits_zero_f32]

/-- The first layer's contraction over 768 rows is the sum of the specification's three band terms. -/
theorem layer1_eq (b : Fin 8) (p q : Fin 128) (h : Fin 256) :
    val_main_v12 (F := Ideal) x wp w1 (ix4 b p q h)
      = termPooled x wp w1 b h + termNode x w1 1 b p h + termNode x w1 2 b q h := by
  have el : ∀ k : Fin 768, lidx_main_v12 (ix4 b p q h) k = ix4 b p q k := fun k => funext fun a => Fin.ext (by
    match a with | ⟨0, _⟩ => rfl | ⟨1, _⟩ => rfl | ⟨2, _⟩ => rfl | ⟨3, _⟩ => rfl)
  have er : ∀ k : Fin 768, ridx_main_v12 (ix4 b p q h) k = ix2 k h := fun k => funext fun a => Fin.ext (by
    match a with | ⟨0, _⟩ => rfl | ⟨1, _⟩ => rfl)
  rw [val_main_v12_apply]
  simp only [el, er]
  rw [sum_bands]
  simp only [relu_band0, relu_band1, relu_band2]
  rfl

/-- The rectified first layer is the specification's hidden vector. -/
theorem hidden_eq (b : Fin 8) (p q : Fin 128) (h : Fin 256) :
    val_main_v16 (F := Ideal) x wp w1 b1 (ix4 b p q h) = hidden x wp w1 b1 b p q h := by
  have e : idx_main_v13 (idx_main_v14 (ix4 b p q h)) = ix1 h := funext fun a => Fin.ext (by
    match a with | ⟨0, _⟩ => rfl)
  rw [val_main_v16_apply, val_main_v15_apply, val_main_call1_v0_apply, val_main_call1_cst_apply,
    val_main_v14_apply, val_main_v13_apply, e, layer1_eq]
  simp only [Ideal.maximumf_def, Ideal.addf_def, Ideal.ofBits_def, Ideal.ofBits_zero_f32]
  rw [regroup]
  rfl

end Cert.Readout.Ref

end
-- ==== Proof.RefValue.lean ====
/-
  The reference program's result is the specification's readout, index by index.

  The last stages contract the rectified hidden vector of a pair of nodes against the single output column of
  the second layer's weights and add its bias; with the hidden vector already identified, this is the
  specification's readout of the pair term by term.  Every index of the result array [8,128,128,1] is a batch
  row, a pair of nodes and the one output column, so the two arrays are equal.
-/
import proofs.«137493_j67302137528982_2_alg».proof.Proof.Gen.ReferenceIdeal.Read
import proofs.«137493_j67302137528982_2_alg».proof.Proof.Spec
import proofs.«137493_j67302137528982_2_alg».proof.Proof.RefHidden

noncomputable section

open scoped BigOperators

namespace Cert.Readout.Ref

open Idealize.ShloMosaic Idealize.ShloMosaic.ValueIdx Cert.Readout Cert.ReferenceIdeal Cert.ReferenceIdeal.Read

variable (x : (⟨S8x128x256, .f32⟩ : BufTy).Contents (Elt Ideal)) (wp : (⟨S256x256, .f32⟩ : BufTy).Contents (Elt Ideal))
  (w1 : (⟨S768x256, .f32⟩ : BufTy).Contents (Elt Ideal)) (b1 : (⟨S256, .f32⟩ : BufTy).Contents (Elt Ideal))
  (w2 : (⟨S256x1, .f32⟩ : BufTy).Contents (Elt Ideal)) (b2 : (⟨S1, .f32⟩ : BufTy).Contents (Elt Ideal))

/-- The last stage at batch row `b` and the pair `(p, q)` is the specification's readout of that pair. -/
theorem out_eq (b : Fin 8) (p q : Fin 128) (z : Fin 1) :
    val_main_v20 (F := Ideal) x wp w1 b1 w2 b2 (ix4 b p q z) = out x wp w1 b1 w2 b2 b p q := by
  obtain rfl : z = 0 := Subsingleton.elim _ _
  have el : ∀ k : Fin 256, lidx_main_v17 (ix4 b p q (0 : Fin 1)) k = ix4 b p q k := fun k => funext fun a => Fin.ext (by
    match a with | ⟨0, _⟩ => rfl | ⟨1, _⟩ => rfl | ⟨2, _⟩ => rfl | ⟨3, _⟩ => rfl)
  have er : ∀ k : Fin 256, ridx_main_v17 (ix4 b p q (0 : Fin 1)) k = ix2 k 0 := fun k => funext fun a => Fin.ext (by
    match a with | ⟨0, _⟩ => rfl | ⟨1, _⟩ => rfl)
  have e : idx_main_v18 (idx_main_v19 (ix4 b p q (0 : Fin 1))) = ix1 0 := funext fun a => Fin.ext (by
    match a with | ⟨0, _⟩ => rfl)
  rw [val_main_v20_apply, val_main_v17_apply, val_main_v19_apply, val_main_v18_apply, e]
  simp only [el, er, hidden_eq, Ideal.addf_def]
  rfl

/-- The reference's last stage, as a function of the six arrays it reads, is the specification's result. -/
theorem result_eq :
    val_main_v20 (F := Ideal) x wp w1 b1 w2 b2 = result x wp w1 b1 w2 b2 := by
  funext i
  refine (congrArg (val_main_v20 (F := Ideal) x wp w1 b1 w2 b2) (eq_ix4 i)).trans ?_
  exact out_eq x wp w1 b1 w2 b2 (i 0) (i 1) (i 2) (i 3)

end Cert.Readout.Ref

end
-- ==== Proof.RegionInputs.lean ====
/-
  What the region's nine input windows hand the body, entry by entry, in terms of the argument arrays.

  Before the region the host cuts the first layer's 768 weight rows into three bands of 256 (rows `256·k + ·` for
  band `k`), changes the float format of the pooling matrix and of the three bands (nothing, on the extended
  reals), re-lays the first layer's bias [256] and the second layer's bias [1] with a leading unit axis, and
  transposes the second layer's one column [256, 1] into a row [1, 256].  The node embeddings are handed over as
  they are.  At the grid point number `t` — batch row `t / 2`, half `t % 2` of the node rows — the body gets all
  128 node rows of that batch row, the 64 node rows `64·(t % 2) + ·` of it, and each weight array whole.
-/
import proofs.«137493_j67302137528982_2_alg».proof.Proof.IdealBlocks
import proofs.«137493_j67302137528982_2_alg».proof.Proof.Spec
import Idealize.ShloMosaic.Lib.ValueLayout

noncomputable section

namespace Cert.Readout.Array

open Cert.KernelIdeal Cert.KernelIdeal.Gen Cert.KernelIdeal.Region
open Idealize.ShloMosaic Idealize.ShloMosaic.TcCoe Idealize.ShloMosaic.ValueIdx Idealize.SL.Sem

variable (m : (ℓ : Loc nD τ sig) → Buf (Elt Ideal) ℓ)

/-! ## The arrays when the region is entered, at an index -/

/-- The node embeddings are the argument. -/
theorem V_arg0 (c : Dev nD) :
    (V (F := Ideal) m c main_arg0 : S8x128x256.Idx → EReal) = m ((c : Thread nD τ).loc main_arg0) := by
  dsimp only [V, V0]
  simp only [hostOps0, List.flatten_cons, List.flatten_nil, List.append_nil]
  after_results

/-- The pooling matrix is the argument in another float format. -/
theorem V_v3_apply (c : Dev nD) (f g : Fin 256) :
    (V (F := Ideal) m c main_v3 : S256x256.Idx → EReal) (ix2 f g)
      = (m ((c : Thread nD τ).loc main_arg2) : S256x256.Idx → EReal) (ix2 f g) := by
  have e : (V (F := Ideal) m c main_v3 : S256x256.Idx → EReal)
      = truncf (F := Ideal) .bf16 (m ((c : Thread nD τ).loc main_arg2)) bitsLt_bf16_f32 := by
    dsimp only [V, V0]
    simp only [hostOps0, List.flatten_cons, List.flatten_nil, List.append_nil]
    after_results
  rw [e]
  rfl

/-- The pooled band is rows `0 … 255` of the first layer's weights. -/
theorem V_v4_apply (c : Dev nD) (g h : Fin 256) :
    (V (F := Ideal) m c main_v4 : S256x256.Idx → EReal) (ix2 g h)
      = (m ((c : Thread nD τ).loc main_arg3) : S768x256.Idx → EReal) (ix2 (bandRow 0 g) h) := by
  have e : (V (F := Ideal) m c main_v4 : S256x256.Idx → EReal)
      = truncf (F := Ideal) .bf16 (extractStridedSlice S256x256 ![0, 0] (m ((c : Thread nD τ).loc main_arg3))
          slices_S768x256_S256x256_0_0) bitsLt_bf16_f32 := by
    dsimp only [V, V0]
    simp only [hostOps0, List.flatten_cons, List.flatten_nil, List.append_nil]
    after_results
  rw [e]
  exact slice2_axis0_apply 0 (m ((c : Thread nD τ).loc main_arg3) : S768x256.Idx → EReal) slices_S768x256_S256x256_0_0 g h
    (bandRow 0 g) (by show 0 * 256 + g.val = 0 + g.val; omega)

/-- The `i` band is rows `256 … 511`. -/
theorem V_v5_apply (c : Dev nD) (f h : Fin 256) :
    (V (F := Ideal) m c main_v5 : S256x256.Idx → EReal) (ix2 f h)
      = (m ((c : Thread nD τ).loc main_arg3) : S768x256.Idx → EReal) (ix2 (bandRow 1 f) h) := by
  have e : (V (F := Ideal) m c main_v5 : S256x256.Idx → EReal)
      = truncf (F := Ideal) .bf16 (extractStridedSlice S256x256 ![256, 0] (m ((c : Thread nD τ).loc main_arg3))
          slices_S768x256_S256x256_256_0) bitsLt_bf16_f32 := by
    dsimp only [V, V0]
    simp only [hostOps0, List.flatten_cons, List.flatten_nil, List.append_nil]
    after_results
  rw [e]
  exact slice2_axis0_apply 256 (m ((c : Thread nD τ).loc main_arg3) : S768x256.Idx → EReal) slices_S768x256_S256x256_256_0 f h
    (bandRow 1 f) (by show 1 * 256 + f.val = 256 + f.val; omega)

/-- The `j` band is rows `512 … 767`. -/
theorem V_v6_apply (c : Dev nD) (f h : Fin 256) :
    (V (F := Ideal) m c main_v6 : S256x256.Idx → EReal) (ix2 f h)
      = (m ((c : Thread nD τ).loc main_arg3) : S768x256.Idx → EReal) (ix2 (bandRow 2 f) h) := by
  have e : (V (F := Ideal) m c main_v6 : S256x256.Idx → EReal)
      = truncf (F := Ideal) .bf16 (extractStridedSlice S256x256 ![512, 0] (m ((c : Thread nD τ).loc main_arg3))
          slices_S768x256_S256x256_512_0) bitsLt_bf16_f32 := by
    dsimp only [V, V0]
    simp only [hostOps0, List.flatten_cons, List.flatten_nil, List.append_nil]
    after_results
  rw [e]
  exact slice2_axis0_apply 512 (m ((c : Thread nD τ).loc main_arg3) : S768x256.Idx → EReal) slices_S768x256_S256x256_512_0 f h
    (bandRow 2 f) (by show 2 * 256 + f.val = 512 + f.val; omega)

/-- The first layer's bias as a row. -/
theorem V_v7_apply (c : Dev nD) (h : Fin 256) :
    (V (F := Ideal) m c main_v7 : S1x256.Idx → EReal) (ix2 0 h)
      = (m ((c : Thread nD τ).loc main_arg4) : S256.Idx → EReal) (ix1 h) := by
  have e : (V (F := Ideal) m c main_v7 : S1x256.Idx → EReal)
      = shapeCast S1x256 (m ((c : Thread nD τ).loc main_arg4)) shapeCasts_S256_S1x256 := by
    dsimp only [V, V0]
    simp only [hostOps0, List.flatten_cons, List.flatten_nil, List.append_nil]
    after_results
    rfl
  rw [e]
  exact shapeCast_a_1a_apply _ _ 0 h

/-- The second layer's one column as a row. -/
theorem V_v8_apply (c : Dev nD) (h : Fin 256) :
    (V (F := Ideal) m c main_v8 : S1x256.Idx → EReal) (ix2 0 h)
      = (m ((c : Thread nD τ).loc main_arg5) : S256x1.Idx → EReal) (ix2 h 0) := by
  have e : (V (F := Ideal) m c main_v8 : S1x256.Idx → EReal)
      = transpose S1x256 [1, 0] (m ((c : Thread nD τ).loc main_arg5)) transposes_S256x1_S1x256_1_0 := by
    dsimp only [V, V0]
    simp only [hostOps0, List.flatten_cons, List.flatten_nil, List.append_nil]
    after_results
  rw [e]
  exact transpose_ix2_apply _ _ 0 h

/-- The second layer's bias with a leading unit axis. -/
theorem V_v9_apply (c : Dev nD) :
    (V (F := Ideal) m c main_v9 : S1x1.Idx → EReal) (ix2 0 0)
      = (m ((c : Thread nD τ).loc main_arg6) : S1.Idx → EReal) (ix1 0) := by
  have e : (V (F := Ideal) m c main_v9 : S1x1.Idx → EReal)
      = shapeCast S1x1 (m ((c : Thread nD τ).loc main_arg6)) shapeCasts_S1_S1x1 := by
    dsimp only [V, V0]
    simp only [hostOps0, List.flatten_cons, List.flatten_nil, List.append_nil]
    after_results
    rfl
  rw [e]
  exact shapeCast_a_1a_apply _ _ 0 0

/-! ## The block indices over the grid -/

/-- The printed index maps at point number `t`: the two windows on the node embeddings and the output window sit
    at batch row `t / 2`, the 64-row window and the output window at half `t % 2`; every weight window at its
    array's origin. -/
theorem idx_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = t.val % 2 ∧ win0_1.index t (2 : Fin 3) = 0)
    ∧ (win0_9.index t (0 : Fin 3) = t.val / 2 ∧ win0_9.index t (1 : Fin 3) = t.val % 2 ∧ win0_9.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The input blocks at a point, at an index -/

/-- All 128 node rows of batch row `t / 2`. -/
theorem block0_apply (c : Dev nD) (t : Fin cfg0.N) (b : Fin 8) (hb : b.val = t.val / 2) (n : Fin 128) (f : Fin 256) :
    (blockAt (F := Ideal) m c 0 t : Vec Ideal S1x128x256 .f32) (ix3 0 n f)
      = (m ((c : Thread nD τ).loc main_arg0) : S8x128x256.Idx → EReal) (ix3 b n f) := by
  obtain ⟨⟨e0, e1, e2⟩, -⟩ := idx_facts t
  unfold blockAt
  rw [View.read_apply]
  show (V (F := Ideal) m c main_arg0 : S8x128x256.Idx → EReal) _ = _
  rw [V_arg0]
  refine congrArg _ (funext fun a => Fin.ext ?_)
  match a with
  | ⟨0, _⟩ => show win0_0.index t (0 : Fin 3) * 1 + 1 * 0 = b.val; omega
  | ⟨1, _⟩ => show win0_0.index t (1 : Fin 3) * 128 + 1 * n.val = n.val; omega
  | ⟨2, _⟩ => show win0_0.index t (2 : Fin 3) * 256 + 1 * f.val = f.val; omega

/-- The 64 node rows of half `t % 2` of batch row `t / 2`. -/
theorem block1_apply (c : Dev nD) (t : Fin cfg0.N) (b : Fin 8) (hb : b.val = t.val / 2) (p : Fin 64) (i : Fin 128)
    (hi : i.val = 64 * (t.val % 2) + p.val) (f : Fin 256) :
    (blockAt (F := Ideal) m c 1 t : Vec Ideal S1x64x256 .f32) (ix3 0 p f)
      = (m ((c : Thread nD τ).loc main_arg0) : S8x128x256.Idx → EReal) (ix3 b i f) := by
  obtain ⟨-, ⟨e0, e1, e2⟩, -⟩ := idx_facts t
  unfold blockAt
  rw [View.read_apply]
  show (V (F := Ideal) m c main_arg0 : S8x128x256.Idx → EReal) _ = _
  rw [V_arg0]
  refine congrArg _ (funext fun a => Fin.ext ?_)
  match a with
  | ⟨0, _⟩ => show win0_1.index t (0 : Fin 3) * 1 + 1 * 0 = b.val; omega
  | ⟨1, _⟩ => show win0_1.index t (1 : Fin 3) * 64 + 1 * p.val = i.val; omega
  | ⟨2, _⟩ => show win0_1.index t (2 : Fin 3) * 256 + 1 * f.val = f.val; omega

/-- The pooling matrix, whole. -/
theorem block2_apply (c : Dev nD) (t : Fin cfg0.N) (f g : Fin 256) :
    (blockAt (F := Ideal) m c 2 t : Vec Ideal S256x256 .bf16) (ix2 f g)
      = (m ((c : Thread nD τ).loc main_arg2) : S256x256.Idx → EReal) (ix2 f g) := by
  obtain ⟨-, -, -, ⟨e0, e1⟩, -⟩ := idx_facts t
  unfold blockAt
  rw [View.read_apply]
  show (V (F := Ideal) m c main_v3 : S256x256.Idx → EReal) _ = _
  refine (congrArg _ (funext fun a => Fin.ext ?_)).trans (V_v3_apply m c f g)
  match a with
  | ⟨0, _⟩ => show win0_2.index t (0 : Fin 2) * 256 + 1 * f.val = f.val; omega
  | ⟨1, _⟩ => show win0_2.index t (1 : Fin 2) * 256 + 1 * g.val = g.val; omega

/-- The pooled band, whole: rows `0 … 255` of the first layer's weights. -/
theorem block3_apply (c : Dev nD) (t : Fin cfg0.N) (g h : Fin 256) :
    (blockAt (F := Ideal) m c 3 t : Vec Ideal S256x256 .bf16) (ix2 g h)
      = (m ((c : Thread nD τ).loc main_arg3) : S768x256.Idx → EReal) (ix2 (bandRow 0 g) h) := by
  obtain ⟨-, -, -, -, ⟨e0, e1⟩, -⟩ := idx_facts t
  unfold blockAt
  rw [View.read_apply]
  show (V (F := Ideal) m c main_v4 : S256x256.Idx → EReal) _ = _
  refine (congrArg _ (funext fun a => Fin.ext ?_)).trans (V_v4_apply m c g h)
  match a with
  | ⟨0, _⟩ => show win0_3.index t (0 : Fin 2) * 256 + 1 * g.val = g.val; omega
  | ⟨1, _⟩ => show win0_3.index t (1 : Fin 2) * 256 + 1 * h.val = h.val; omega

/-- The `i` band, whole: rows `256 … 511`. -/
theorem block4_apply (c : Dev nD) (t : Fin cfg0.N) (f h : Fin 256) :
    (blockAt (F := Ideal) m c 4 t : Vec Ideal S256x256 .bf16) (ix2 f h)
      = (m ((c : Thread nD τ).loc main_arg3) : S768x256.Idx → EReal) (ix2 (bandRow 1 f) h) := by
  obtain ⟨-, -, -, -, -, ⟨e0, e1⟩, -⟩ := idx_facts t
  unfold blockAt
  rw [View.read_apply]
  show (V (F := Ideal) m c main_v5 : S256x256.Idx → EReal) _ = _
  refine (congrArg _ (funext fun a => Fin.ext ?_)).trans (V_v5_apply m c f h)
  match a with
  | ⟨0, _⟩ => show win0_4.index t (0 : Fin 2) * 256 + 1 * f.val = f.val; omega
  | ⟨1, _⟩ => show win0_4.index t (1 : Fin 2) * 256 + 1 * h.val = h.val; omega

/-- The `j` band, whole: rows `512 … 767`. -/
theorem block5_apply (c : Dev nD) (t : Fin cfg0.N) (f h : Fin 256) :
    (blockAt (F := Ideal) m c 5 t : Vec Ideal S256x256 .bf16) (ix2 f h)
      = (m ((c : Thread nD τ).loc main_arg3) : S768x256.Idx → EReal) (ix2 (bandRow 2 f) h) := by
  obtain ⟨-, -, -, -, -, -, ⟨e0, e1⟩, -⟩ := idx_facts t
  unfold blockAt
  rw [View.read_apply]
  show (V (F := Ideal) m c main_v6 : S256x256.Idx → EReal) _ = _
  refine (congrArg _ (funext fun a => Fin.ext ?_)).trans (V_v6_apply m c f h)
  match a with
  | ⟨0, _⟩ => show win0_5.index t (0 : Fin 2) * 256 + 1 * f.val = f.val; omega
  | ⟨1, _⟩ => show win0_5.index t (1 : Fin 2) * 256 + 1 * h.val = h.val; omega

/-- The second layer's weights as a row. -/
theorem block6_apply (c : Dev nD) (t : Fin cfg0.N) (h : Fin 256) :
    (blockAt (F := Ideal) m c 6 t : Vec Ideal S1x256 .f32) (ix2 0 h)
      = (m ((c : Thread nD τ).loc main_arg5) : S256x1.Idx → EReal) (ix2 h 0) := by
  obtain ⟨-, -, -, -, -, -, -, ⟨e0, e1⟩, -⟩ := idx_facts t
  unfold blockAt
  rw [View.read_apply]
  show (V (F := Ideal) m c main_v8 : S1x256.Idx → EReal) _ = _
  refine (congrArg _ (funext fun a => Fin.ext ?_)).trans (V_v8_apply m c h)
  match a with
  | ⟨0, _⟩ => show win0_6.index t (0 : Fin 2) * 1 + 1 * 0 = 0; omega
  | ⟨1, _⟩ => show win0_6.index t (1 : Fin 2) * 256 + 1 * h.val = h.val; omega

/-- The first layer's bias as a row. -/
theorem block7_apply (c : Dev nD) (t : Fin cfg0.N) (h : Fin 256) :
    (blockAt (F := Ideal) m c 7 t : Vec Ideal S1x256 .f32) (ix2 0 h)
      = (m ((c : Thread nD τ).loc main_arg4) : S256.Idx → EReal) (ix1 h) := by
  obtain ⟨-, -, -, -, -, -, -, -, ⟨e0, e1⟩, -⟩ := idx_facts t
  unfold blockAt
  rw [View.read_apply]
  show (V (F := Ideal) m c main_v7 : S1x256.Idx → EReal) _ = _
  refine (congrArg _ (funext fun a => Fin.ext ?_)).trans (V_v7_apply m c h)
  match a with
  | ⟨0, _⟩ => show win0_7.index t (0 : Fin 2) * 1 + 1 * 0 = 0; omega
  | ⟨1, _⟩ => show win0_7.index t (1 : Fin 2) * 256 + 1 * h.val = h.val; omega

/-- The second layer's bias. -/
theorem block8_apply (c : Dev nD) (t : Fin cfg0.N) :
    (blockAt (F := Ideal) m c 8 t : Vec Ideal S1x1 .f32) (ix2 0 0)
      = (m ((c : Thread nD τ).loc main_arg6) : S1.Idx → EReal) (ix1 0) := by
  obtain ⟨-, -, -, -, -, -, -, -, -, ⟨e0, e1⟩⟩ := idx_facts t
  unfold blockAt
  rw [View.read_apply]
  show (V (F := Ideal) m c main_v9 : S1x1.Idx → EReal) _ = _
  refine (congrArg _ (funext fun a => Fin.ext ?_)).trans (V_v9_apply m c)
  match a with
  | ⟨0, _⟩ => show win0_8.index t (0 : Fin 2) * 1 + 1 * 0 = 0; omega
  | ⟨1, _⟩ => show win0_8.index t (1 : Fin 2) * 1 + 1 * 0 = 0; omega

end Cert.Readout.Array

end
-- ==== Proof.BodyLayout.lean ====
/-
  Reading the layout operations, the two sums and the matrix product of the pairwise readout's block at an
  index given by coordinates.

  A block of the computation is a chain of three kinds of operation.  Pointwise ones (add, multiply, rectify,
  change of float format) read the same index of every operand.  Layout ones move data without arithmetic:
  a unit axis is inserted in the middle of a shape ([a, c] seen as [a, 1, c]), and a shape with unit axes is
  repeated along them ([a, 1, c], [1, b, c] and [1, 1, c] repeated to [a, b, c], and the single entry of a [1, 1]
  array repeated to [a, b]); each reads ONE entry of its operand, the one named here.  The arithmetic ones are a
  sum along the last axis of a rank-3 array, a sum along the rows of a matrix, and a matrix product accumulated
  from zero; on the extended reals each is a plain finite sum over one coordinate.
-/
import Idealize.ShloMosaic.Lib.ValueLayout
import Idealize.ShloMosaic.PureOps.Ideal.Laws

noncomputable section

open scoped BigOperators

namespace Cert.Readout.Body

open Idealize.ShloMosaic Idealize.ShloMosaic.ValueIdx

variable {α : Type}

/-! ## A unit axis inserted in the middle -/

/-- An `[a, c]` array seen as `[a, 1, c]` reads, at `(i, u, j)`, the operand at `(i, j)`: both sit at row-major
    position `i · c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-! ## Repeating along unit axes -/

/-- An `[a, 1, c]` array repeated to `[a, b, c]` reads, at `(p, q, e)`, the operand at `(p, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A `[1, b, c]` array repeated to `[a, b, c]` reads, at `(p, q, e)`, the operand at `(0, q, e)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- A `[1, 1, c]` array repeated to `[a, b, c]` reads, at `(p, q, e)`, the operand at `(0, 0, e)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (e : Fin c) :
    broadcastTo ⟨3, ![a, b, c]⟩ v h (ix3 p q e) = v (ix3 (0 : Fin 1) (0 : Fin 1) e) := by
  refine broadcastTo_apply v h (ix3 p q e) (ix3 (0 : Fin 1) (0 : Fin 1) e) fun ax => ?_
  match ax with
  | ⟨0, _⟩ => rfl
  | ⟨1, _⟩ => rfl
  | ⟨2, _⟩ =>
    show e.val = if c = 1 then 0 else e.val
    split
    · have := e.isLt; omega
    · rfl

/-- The single entry of a `[1, 1]` array repeated to `[a, b]` is read everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-! ## The two sums -/

/-- The sum along the last axis of an `[a, b, c]` array, at `(p, q)`: the `c` entries `(p, q, ·)` added up. -/
theorem laneSum_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction (F := Ideal) .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun ax => Fin.ext ?_)
  match ax with
  | ⟨0, _⟩ => rfl
  | ⟨1, _⟩ => rfl
  | ⟨2, _⟩ => rfl

/-- The sum along the rows of an `[a, b]` matrix, at column `q`: the `a` entries `(·, q)` added up. -/
theorem columnSum_apply {φ : FTy} {a b : ℕ} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction (F := Ideal) .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-! ## A matrix product accumulated from zero -/

/-- Rows times columns: an `[M, K]` matrix against a `[K, N]` one, accumulated into the zero matrix, is at
    `(r, c)` the sum over `k` of the left factor at `(r, k)` times the right factor at `(k, c)`.  The
    dimension numbers are any record equal to the plain ones (contract the left factor's columns with the
    right factor's rows, no batch axis). -/
theorem matmul_plain_apply {M K N : ℕ} {φ₁ φ₂ : FTy}
    (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (r : Fin M) (c : Fin N) :
    matmul (F := Ideal) D prec lhs rhs (constant (F := Ideal) ⟨2, ![M, N]⟩ .f32 0x00000000#32) (ix2 r c)
      = ∑ k : Fin K, lhs (ix2 r k) * rhs (ix2 k c) := by
  subst hD
  refine (Ideal.matmul_constant_zero_apply (DotDims.plain M K N) prec lhs rhs (ix2 r c)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun ax => Fin.ext (by
      match ax with
      | ⟨0, _⟩ => exact ((DotDims.plain M K N).rhsIdx_val_of_single rfl _ _).trans hk
      | ⟨1, _⟩ => rfl)
  rw [el, er]

end Cert.Readout.Body

end
-- ==== Proof.BodyTerms.lean ====
/-
  The two node terms and the bias of the pairwise readout's block, read at an index.

  The block rectifies its 128 node rows and multiplies them by the `j` band of the first layer, and does the
  same with its 64 node rows and the `i` band.  Both are the same computation at two row counts: rectify an
  [M, 256] matrix entry by entry, change its float format (nothing, on the extended reals), and multiply it by a
  [256, 256] band into a zero accumulator.  At row `r` and hidden feature `h` that is the sum over the 256
  input features `f` of `max (x r f) 0 · w f h`: the specification's `blockTermJ` and `blockTermI` once the
  leading unit axis of the loaded rows is dropped.  The bias row is loaded and used as it is.
-/
import proofs.«137493_j67302137528982_2_alg».proof.Proof.Gen.KernelIdeal.Skeleton
import proofs.«137493_j67302137528982_2_alg».proof.Proof.Spec
import proofs.«137493_j67302137528982_2_alg».proof.Proof.BodyLayout

noncomputable section

open scoped BigOperators

namespace Cert.Readout.Body

open Idealize.ShloMosaic Idealize.ShloMosaic.ValueIdx Cert.KernelIdeal Cert.KernelIdeal.Gen

/-- Rectified rows against a band: the matrix product of `max x 0` (in any float format) with `w`, accumulated
    from zero, is at `(r, h)` the sum over the features `f` of `max (x r f) 0 · w f h`. -/
theorem reluRows_matmul_apply {M : ℕ}
    (D : DotDims ⟨2, ![M, 256]⟩ ⟨2, ![256, 256]⟩ ⟨2, ![M, 256]⟩) (hD : D = DotDims.plain M 256 256)
    (x : FVec Ideal ⟨2, ![M, 256]⟩ .f32) (w : FVec Ideal ⟨2, ![256, 256]⟩ .bf16)
    (hlt : FTy.bits .bf16 < FTy.bits .f32)
    (hc : (⟨2, ![256, 256]⟩ : Shape).ShapeCasts ⟨2, ![256, 256]⟩) (r : Fin M) (h : Fin 256) :
    matmul (F := Ideal) D none
        (truncf .bf16 (maximumf x (broadcast ⟨2, ![M, 256]⟩ (Scalar.ofBits (F := Ideal) .f32 0x00000000#32))) hlt)
        (shapeCast ⟨2, ![256, 256]⟩ w hc) (constant (F := Ideal) ⟨2, ![M, 256]⟩ .f32 0x00000000#32) (ix2 r h)
      = ∑ f : Fin 256, max (x (ix2 r f)) 0 * w (ix2 f h) := by
  refine (matmul_plain_apply D hD none _ _ r h).trans ?_
  refine Finset.sum_congr rfl fun f _ => ?_
  exact congrArg₂ (· * ·) (congrArg (max (x (ix2 r f))) Ideal.ofBits_zero_f32)
    (congrFun (shapeCast_self w hc) (ix2 f h))

/-- The `j` term of the block at node row `q` of the 128 and hidden feature `h`. -/
theorem jTerm_apply (v0 : Vec Ideal S1x128x256 .f32) (v21 : Vec Ideal S256x256 .bf16) (q : Fin 128) (h : Fin 256) :
    k0_pay3 (F := Ideal) v0 v21 (ix2 q h) = blockTermJ v0 v21 q h := by
  unfold k0_pay3 k0_pay2 blockTermJ
  refine (reluRows_matmul_apply dot_S128x256_S256x256_S128x256_1_0_0_1_n_n rfl _ v21 _ _ q h).trans ?_
  refine Finset.sum_congr rfl fun f _ => ?_
  exact congrArg (fun t => max t 0 * v21 (ix2 f h)) (shapeCast_1ab_ab_apply v0 _ q f)

/-- The `i` term of the block at node row `p` of the 64 and hidden feature `h`. -/
theorem iTerm_apply (v2 : Vec Ideal S1x64x256 .f32) (v27 : Vec Ideal S256x256 .bf16) (p : Fin 64) (h : Fin 256) :
    k0_pay4 (F := Ideal) v2 v27 (ix2 p h) = blockTermI v2 v27 p h := by
  unfold k0_pay4 blockTermI
  refine (reluRows_matmul_apply dot_S64x256_S256x256_S64x256_1_0_0_1_n_n rfl _ v27 _ _ p h).trans ?_
  refine Finset.sum_congr rfl fun f _ => ?_
  exact congrArg (fun t => max t 0 * v27 (ix2 f h)) (shapeCast_1ab_ab_apply v2 _ p f)

/-- The bias row is the loaded one. -/
theorem bias_eq (v30 : Vec Ideal S1x256 .f32) : k0_pay5 (F := Ideal) v30 = v30 := by
  unfold k0_pay5
  exact shapeCast_self v30 _

end Cert.Readout.Body

end
-- ==== Proof.BodyPooled.lean ====
/-
  The pooled term of the pairwise readout's block, read at an index.

  The block adds its 128 node rows feature by feature and scales the sums by the word that denotes 2⁻⁷: the mean
  row.  The mean row times the pooling matrix is the pooled row; the rectified pooled row times the pooled band of
  the first layer is the pooled term, one row of 256 hidden features, which is then repeated over the 128 node
  rows.  So at every node row `q` and hidden feature `h` the term is the specification's `blockTermPooled` at `h`:
  three nested finite sums, over the 256 pooled features, the 256 input features and the 128 nodes.
-/
import proofs.«137493_j67302137528982_2_alg».proof.Proof.BodyTerms

noncomputable section

open scoped BigOperators

namespace Cert.Readout.Body

open Idealize.ShloMosaic Idealize.ShloMosaic.ValueIdx Cert.KernelIdeal Cert.KernelIdeal.Gen

/-- Scaling by a repeated constant and changing the float format, at an index: the entry times the constant. -/
theorem scaled_apply {s : Shape} (x : FVec Ideal s .f32) (b : BitVec 32) (hlt : FTy.bits .bf16 < FTy.bits .f32)
    (i : s.Idx) :
    truncf .bf16 (mulf x (broadcast s (Scalar.ofBits (F := Ideal) .f32 b))) hlt i = x i * Ideal.ofBits .f32 b := rfl

/-- The pooled term of the block at node row `q` of the 128 and hidden feature `h`; it does not depend on `q`. -/
theorem pooledTerm_apply (v0 : Vec Ideal S1x128x256 .f32) (v9 v15 : Vec Ideal S256x256 .bf16) (q : Fin 128)
    (h : Fin 256) : k0_pay6 (F := Ideal) v0 v9 v15 (ix2 q h) = blockTermPooled v0 v9 v15 h := by
  unfold k0_pay6 blockTermPooled
  -- the one row repeated over the node rows
  refine (broadcastTo_1b_ab_apply _ _ q h).trans ?_
  -- the rectified pooled row against the pooled band
  refine (reluRows_matmul_apply dot_S1x256_S256x256_S1x256_1_0_0_1_n_n rfl _ v15 _ _ 0 h).trans ?_
  refine Finset.sum_congr rfl fun g _ => ?_
  refine congrArg (fun t => max t 0 * v15 (ix2 g h)) ?_
  -- the mean row against the pooling matrix
  unfold blockPooled
  refine (matmul_plain_apply dot_S1x256_S256x256_S1x256_1_0_0_1_n_n rfl none _ _ 0 g).trans ?_
  refine Finset.sum_congr rfl fun f _ => ?_
  refine congrArg₂ (· * ·) ?_ (congrFun (shapeCast_self v9 _) (ix2 f g))
  -- the mean row: the column sums, scaled
  unfold blockMean
  refine (scaled_apply _ _ _ _).trans (congrArg (· * invN) ?_)
  refine (shapeCast_a_1a_apply _ _ 0 f).trans ?_
  refine (columnSum_apply _ _ _ _ _ f).trans ?_
  refine Finset.sum_congr rfl fun n _ => ?_
  unfold k0_pay2
  exact shapeCast_1ab_ab_apply v0 _ n f

end Cert.Readout.Body

end
-- ==== Proof.BodyValue.lean ====
/-
  What one block of the pairwise readout stores, read at row `p` of its 64 and column `q`.

  The block holds three matrices of first-layer terms: the `j` term and the pooled term, one row per node of the
  128, and the `i` term, one row per node of the 64, and the bias row.  It adds the `j` term, the pooled term and
  the bias row by row, lays the result along the SECOND axis of a [64, 128, 256] array and the `i` term along
  the FIRST, adds the two, rectifies, multiplies by the output weights repeated over both node axes, sums over the
  256 hidden features, and adds the output bias.  Entry `(p, q)` therefore only meets row `p` of the `i` term
  and row `q` of the other two:
      ∑ₕ max (I p h + ((J q h + P q h) + b₁ h)) 0 · w₂ h  +  b₂ ,
  which with the three terms read at an index is the specification's `blockOut`.
-/
import proofs.«137493_j67302137528982_2_alg».proof.Proof.BodyPooled

noncomputable section

open scoped BigOperators

namespace Cert.Readout.Body

open Idealize.ShloMosaic Idealize.ShloMosaic.ValueIdx Cert.KernelIdeal Cert.KernelIdeal.Gen

/-- The assembly over ANY three term matrices and rows: entry `(p, q)` of what is stored. -/
theorem assembled_apply (tj : FVec Ideal S128x256 .f32) (ti : FVec Ideal S64x256 .f32) (b1 : FVec Ideal S1x256 .f32)
    (tp : FVec Ideal S128x256 .f32) (w2 : Vec Ideal S1x256 .f32) (b2 : Vec Ideal S1x1 .f32) (p : Fin 64) (q : Fin 128) :
    k0_pay1 (F := Ideal) tj ti b1 tp w2 b2 (ix3 0 p q)
      = (∑ h : Fin 256, max (ti (ix2 p h) + ((tj (ix2 q h) + tp (ix2 q h)) + b1 (ix2 0 h))) 0 * w2 (ix2 0 h))
          + b2 (ix2 0 0) := by
  unfold k0_pay1
  -- the leading unit axis of the stored block
  refine (shapeCast_ab_1ab_apply _ _ 0 p q).trans ?_
  show _ + _ = _
  refine congrArg₂ (· + ·) ?_ ?_
  · -- the sum over the hidden features
    refine (laneSum_apply _ _ _ _ _ p q).trans ?_
    refine Finset.sum_congr rfl fun h _ => ?_
    show _ * _ = _
    refine congrArg₂ (· * ·) ?_ ?_
    · -- the rectified pre-activation
      show max _ _ = _
      refine congrArg₂ max ?_ Ideal.ofBits_zero_f32
      show _ + _ = _
      refine congrArg₂ (· + ·) ?_ ?_
      · -- the `i` term, laid along the first axis
        exact (broadcastTo_a1c_abc_apply _ _ p q h).trans (shapeCast_ac_a1c_apply ti _ p 0 h)
      · -- the other three, laid along the second axis
        refine (broadcastTo_1bc_abc_apply _ _ p q h).trans ?_
        refine (shapeCast_ab_1ab_apply _ _ 0 q h).trans ?_
        show (_ + _) + _ = _
        exact congrArg ((tj (ix2 q h) + tp (ix2 q h)) + ·) (broadcastTo_1b_ab_apply b1 _ q h)
    · -- the output weights, repeated over both node axes
      refine (broadcastTo_11c_abc_apply _ _ p q h).trans ?_
      refine (shapeCast_ab_1ab_apply _ _ 0 0 h).trans ?_
      exact congrFun (shapeCast_self w2 _) (ix2 0 h)
  · -- the output bias, repeated everywhere
    refine (broadcastTo_11_ab_apply _ _ p q).trans ?_
    exact congrFun (shapeCast_self b2 _) (ix2 0 0)

/-- What the block stores at `(p, q)` is the specification's `blockOut` of the values it loaded. -/
theorem stored_eq (v0 : Vec Ideal S1x128x256 .f32) (v2 : Vec Ideal S1x64x256 .f32)
    (v9 v15 v21 v27 : Vec Ideal S256x256 .bf16) (v30 v43 : Vec Ideal S1x256 .f32) (v49 : Vec Ideal S1x1 .f32)
    (p : Fin 64) (q : Fin 128) :
    k0_pay1 (F := Ideal) (k0_pay3 v0 v21) (k0_pay4 v2 v27) (k0_pay5 v30) (k0_pay6 v0 v9 v15) v43 v49 (ix3 0 p q)
      = Cert.Readout.blockOut v0 v2 v9 v15 v27 v21 v43 v30 v49 p q := by
  refine (assembled_apply _ _ _ _ v43 v49 p q).trans ?_
  unfold blockOut blockHidden
  refine congrArg (· + v49 (ix2 0 0)) (Finset.sum_congr rfl fun h _ => ?_)
  rw [jTerm_apply, iTerm_apply, pooledTerm_apply, bias_eq]

end Cert.Readout.Body

end
-- ==== Proof.BlockOfWhole.lean ====
/-
  One block of the pairwise readout against the whole computation.

  The specification states the readout twice: over the whole argument arrays (`out`), and over what one block of
  the computation is handed (`blockOut`): the 128 node rows of one batch row, 64 consecutive node rows of it,
  and the weights cut into their bands and re-laid as rows.  When the block's inputs ARE those pieces of the whole
  arrays — batch row `b`, the node row `i` among the 64, band `k` of the first layer at rows `256·k + ·`, the
  output weights' one column read as a row — the two are the same nest of finite sums, term by term.
-/
import proofs.«137493_j67302137528982_2_alg».proof.Proof.Spec

noncomputable section

open scoped BigOperators

namespace Cert.Readout

open Idealize.ShloMosaic Idealize.ShloMosaic.ValueIdx

/-- `blockOut` of the pieces of the whole arrays is `out` of the whole arrays. -/
theorem blockOut_eq_out
    (x : (⟨3, ![8, 128, 256]⟩ : Shape).Idx → EReal) (wp : (⟨2, ![256, 256]⟩ : Shape).Idx → EReal)
    (w1 : (⟨2, ![768, 256]⟩ : Shape).Idx → EReal) (b1 : (⟨1, ![256]⟩ : Shape).Idx → EReal)
    (w2 : (⟨2, ![256, 1]⟩ : Shape).Idx → EReal) (b2 : (⟨1, ![1]⟩ : Shape).Idx → EReal)
    (xa : (⟨3, ![1, 128, 256]⟩ : Shape).Idx → EReal) (xi : (⟨3, ![1, 64, 256]⟩ : Shape).Idx → EReal)
    (wp' w1p w1i w1j : (⟨2, ![256, 256]⟩ : Shape).Idx → EReal)
    (w2' b1' : (⟨2, ![1, 256]⟩ : Shape).Idx → EReal) (b2' : (⟨2, ![1, 1]⟩ : Shape).Idx → EReal)
    (b : Fin 8) (i j : Fin 128) (p : Fin 64)
    (hxa : ∀ (n : Fin 128) (f : Fin 256), xa (ix3 0 n f) = x (ix3 b n f))
    (hxi : ∀ f : Fin 256, xi (ix3 0 p f) = x (ix3 b i f))
    (hwp : ∀ f g : Fin 256, wp' (ix2 f g) = wp (ix2 f g))
    (hp : ∀ g h : Fin 256, w1p (ix2 g h) = w1 (ix2 (bandRow 0 g) h))
    (hi : ∀ f h : Fin 256, w1i (ix2 f h) = w1 (ix2 (bandRow 1 f) h))
    (hj : ∀ f h : Fin 256, w1j (ix2 f h) = w1 (ix2 (bandRow 2 f) h))
    (hw2 : ∀ h : Fin 256, w2' (ix2 0 h) = w2 (ix2 h 0))
    (hb1 : ∀ h : Fin 256, b1' (ix2 0 h) = b1 (ix1 h))
    (hb2 : b2' (ix2 0 0) = b2 (ix1 0)) :
    blockOut xa xi wp' w1p w1i w1j w2' b1' b2' p j = out x wp w1 b1 w2 b2 b i j := by
  unfold blockOut blockHidden blockTermI blockTermJ blockTermPooled blockPooled blockMean
    out hidden termNode termPooled pooled mean
  simp only [hxa, hxi, hwp, hp, hi, hj, hw2, hb1, hb2]

end Cert.Readout

end
-- ==== Proof.ArrayValue.lean ====
/-
  The region's result array after the run: the pairwise readout of the argument arrays, entry by entry.

  The result [8, 128, 128] is filled block by block: the grid point number `t` writes back rows
  `64·(t % 2) … 64·(t % 2) + 63` of batch row `t / 2`, all 128 columns.  What it writes at row `p` of its 64 and
  column `q` is, by the body's arithmetic, the specification's `blockOut` of the nine input blocks; the input
  blocks are the pieces of the argument arrays that `blockOut` against `out` asks for; so it is `out` at batch
  row `t / 2`, node `64·(t % 2) + p` and node `q`: the point's block of ONE function of the argument arrays.
  The 16 blocks tile the array (entry `(b, r, ·)` lies in the block of point `2·b + r / 64`), so after the run
  the array is that function.
-/
import proofs.«137493_j67302137528982_2_alg».proof.Proof.RegionInputs
import proofs.«137493_j67302137528982_2_alg».proof.Proof.BodyValue
import proofs.«137493_j67302137528982_2_alg».proof.Proof.BlockOfWhole
import Idealize.ShloMosaic.Lib.Pipeline.Value

noncomputable section

namespace Cert.Readout.Array

open Cert.KernelIdeal Cert.KernelIdeal.Gen Cert.KernelIdeal.Region
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The readout of the argument arrays as an array of shape [8, 128, 128]. -/
def readout (c : Dev nD) : S8x128x128.Idx → EReal := fun i =>
  Cert.Readout.out (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block at point `t`, at entry `y` of the block: the readout at the entry `k`
    of the array that lies under it. -/
theorem outAt_apply (c : Dev nD) (t : Fin cfg0.N) (y : S1x64x128.Idx) (k : S8x128x128.Idx)
    (h0 : (k 0).val = t.val / 2) (h1 : (k 1).val = 64 * (t.val % 2) + (y 1).val) (h2 : (k 2).val = (y 2).val) :
    outAt (F := Ideal) m c t y = readout m c k := by
  obtain ⟨u, p, q, rfl⟩ : ∃ (u : Fin 1) (p : Fin 64) (q : Fin 128), y = ix3 u p q := ⟨y 0, y 1, y 2, eq_ix3 y⟩
  obtain ⟨b, i, j, rfl⟩ : ∃ (b : Fin 8) (i j : Fin 128), k = ix3 b i j := ⟨k 0, k 1, k 2, eq_ix3 k⟩
  obtain rfl : u = 0 := Subsingleton.elim _ _
  obtain rfl : j = q := Fin.ext h2
  unfold outAt leaves
  rw [View.canon_unit_zero hz3]
  unfold stored
  simp only [View.ld_unit_zero (S := S1x128x256) hz3, View.ld_unit_zero (S := S1x64x256) hz3,
    View.ld_unit_zero (S := S256x256) hz2, View.ld_unit_zero (S := S1x256) hz2, View.ld_unit_zero (S := S1x1) hz2]
  refine (Body.stored_eq _ _ _ _ _ _ _ _ _ p j).trans ?_
  exact blockOut_eq_out _ _ _ _ _ _ _ _ _ _ _ _ _ _ _ b i j p
    (fun n f => block0_apply m c t b h0 n f) (fun f => block1_apply m c t b h0 p i h1 f)
    (block2_apply m c t) (block3_apply m c t) (block4_apply m c t) (block5_apply m c t)
    (block6_apply m c t) (block7_apply m c t) (block8_apply m c t)

/-- What point `t` writes back is its block of the readout. -/
theorem flushed_eq (c : Dev nD) (t : Fin cfg0.N) :
    (dats (F := Ideal) m 0 c).flushed 9 t = ((cfg0.win 9).blk t).view.read (Elt Ideal) (readout m c) := by
  show (cfg0.win 9).cut (grid0.coords t) ((dats (F := Ideal) m 0 c).after 9 t) = _
  rw [after_9]
  obtain ⟨-, -, ⟨e0, e1, e2⟩, -⟩ := idx_facts t
  funext j
  rw [View.read_apply]
  have hj : (j 0).val < 1 := (j 0).isLt
  refine outAt_apply m c t _ _ ?_ ?_ ?_
  · show win0_9.index t (0 : Fin 3) * 1 + 1 * (j 0).val = t.val / 2; omega
  · show win0_9.index t (1 : Fin 3) * 64 + 1 * (j 1).val = 64 * (t.val % 2) + (j 1).val; omega
  · show win0_9.index t (2 : Fin 3) * 128 + 1 * (j 2).val = (j 2).val; omega

/-- An entry of the array is in point `t`'s block iff each coordinate is in the block's range on its axis. -/
theorem mem_block (t : Fin cfg0.N) (i : S8x128x128.Idx) :
    i ∈ ((cfg0.win 9).blk t).view.set ↔ ∀ a : Fin 3, win0_9.index t a * S1x64x128.size a ≤ (i a).val
      ∧ (i a).val < win0_9.index t a * S1x64x128.size a + S1x64x128.size a := by
  show i ∈ ((View.whole main_v10).slice (win0_9.rect t)).set ↔ _
  rw [View.set_slice_whole, Rect.mem_set_unit]
  exact Iff.rfl

/-- Every entry `(b, r, ·)` of the array is in the block of the point number `2·b + r / 64`. -/
theorem covered (i : S8x128x128.Idx) :
    ∃ t : Fin cfg0.N, (cfg0.win 9).flush t = true ∧ i ∈ ((cfg0.win 9).blk t).view.set := by
  have h0 : (i 0).val < 8 := (i 0).isLt
  have h1 : (i 1).val < 128 := (i 1).isLt
  have h2 : (i 2).val < 128 := (i 2).isLt
  have hN : cfg0.N = 16 := N_0
  obtain ⟨t, ht⟩ : ∃ t : Fin cfg0.N, t.val = 2 * (i 0).val + (i 1).val / 64 := ⟨⟨_, by rw [hN]; omega⟩, rfl⟩
  obtain ⟨-, -, ⟨e0, e1, e2⟩, -⟩ := idx_facts t
  refine ⟨t, flush0_9 t, ?_⟩
  rw [mem_block]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 64 ≤ (i 1).val ∧ (i 1).val < win0_9.index t (1 : Fin 3) * 64 + 64
    omega
  | ⟨2, _⟩ =>
    show win0_9.index t (2 : Fin 3) * 128 ≤ (i 2).val ∧ (i 2).val < win0_9.index t (2 : Fin 3) * 128 + 128
    omega

/-- After the run the region's result array is the readout of the argument arrays. -/
theorem final_out (c : Dev nD) :
    (dats (F := Ideal) m 0 c).arrAt 9 cfg0.N
      = (fun i : S8x128x128.Idx => Cert.Readout.out (m ((c : Thread nD τ).loc main_arg0))
          (m ((c : Thread nD τ).loc main_arg2)) (m ((c : Thread nD τ).loc main_arg3))
          (m ((c : Thread nD τ).loc main_arg4)) (m ((c : Thread nD τ).loc main_arg5))
          (m ((c : Thread nD τ).loc main_arg6)) (i 0) (i 1) (i 2)) :=
  (dats (F := Ideal) m 0 c).arrAt_eq_of_cover 9 (readout m c) (fun t _ => flushed_eq m c t) (covered)

end Cert.Readout.Array

end
-- ==== Proof.lean ====
/-
  The pairwise readout of a graph network against its plain reference: the proof of `Cert.Claim`.

  For a batch row and a pair of nodes (i, j) both programs compute, on the extended reals,
      out = ∑ₕ relu( ∑ₖ relu(z)ₖ · W1[k,h] + b1[h] ) · W2[h] + b2,   z = (pooled, xᵢ, xⱼ),
  where pooled is the mean node embedding of the batch row times Wp. The reference builds the 768-long vector z for
  every pair and contracts it at once, dividing the node sum by 128. The kernel never builds z: the 768 weight rows
  fall into three bands of 256, so the contraction is the sum of a pooled term (one per batch row), an i term and a
  j term (one per node), which it adds per pair; and it multiplies the node sum by 2⁻⁷. The two agree because a sum
  over 768 indices is the sum of its three bands in any grouping (addition on the extended reals is commutative and
  associative — no finiteness is needed) and because division by 128 is multiplication by 2⁻⁷ on every extended real.

  The kernel reads the array of node embeddings through two windows at once (all rows of a batch row, and the 64
  rows of the current half), so the region that runs it holds that array as two half shares; the three frames follow
  from the run of each program, and the idealization rewrote nothing, so `preserves` has nothing to say.
-/
import proofs.«137493_j67302137528982_2_alg».proof.Defs
import proofs.«137493_j67302137528982_2_alg».proof.Proof.Gen.Kernel
import proofs.«137493_j67302137528982_2_alg».proof.Proof.Gen.KernelIdeal
import proofs.«137493_j67302137528982_2_alg».proof.Proof.Gen.ReferenceIdeal
import proofs.«137493_j67302137528982_2_alg».proof.Proof.Gen.Pre_finite_inputs
import proofs.«137493_j67302137528982_2_alg».proof.Proof.BitsFrame
import proofs.«137493_j67302137528982_2_alg».proof.Proof.IdealFrame
import proofs.«137493_j67302137528982_2_alg».proof.Proof.RefValue
import proofs.«137493_j67302137528982_2_alg».proof.Proof.ArrayValue
import Idealize.ShloMosaic.Adequacy
import Idealize.ShloMosaic.Init

noncomputable section

namespace Cert.Proof

open Idealize.ShloMosaic Idealize.ShloMosaic.TcCoe Idealize.SL.Sem Idealize.ShloMosaic.ValueIdx

/-- The pairwise readout with a unit axis added is the result array. -/
theorem unit_axis (hb : Cert.KernelIdeal.S8x128x128.BroadcastsInDim Cert.KernelIdeal.S8x128x128x1 (![0, 1, 2] : Fin 3 → Fin Cert.KernelIdeal.S8x128x128x1.rank))
    (x : (⟨3, ![8, 128, 256]⟩ : Shape).Idx → EReal) (wp : (⟨2, ![256, 256]⟩ : Shape).Idx → EReal)
    (w1 : (⟨2, ![768, 256]⟩ : Shape).Idx → EReal) (b1 : (⟨1, ![256]⟩ : Shape).Idx → EReal)
    (w2 : (⟨2, ![256, 1]⟩ : Shape).Idx → EReal) (b2 : (⟨1, ![1]⟩ : Shape).Idx → EReal) :
    broadcastInDim Cert.KernelIdeal.S8x128x128x1 ![0, 1, 2] hb
        (fun i : Cert.KernelIdeal.S8x128x128.Idx => Cert.Readout.out x wp w1 b1 w2 b2 (i 0) (i 1) (i 2))
      = Cert.Readout.result x wp w1 b1 w2 b2 := by
  funext j
  refine (broadcastInDim_apply (s := Cert.KernelIdeal.S8x128x128) (t := Cert.KernelIdeal.S8x128x128x1) ![0, 1, 2] hb _ j
    (ix3 (j 0) (j 1) (j 2)) (fun a => ?_)).trans rfl
  match a with
  | ⟨0, _⟩ => rfl
  | ⟨1, _⟩ => rfl
  | ⟨2, _⟩ => rfl

theorem frame_kernel : Cert.frame_Kernel := fun m ρ _ => Cert.Kernel.Region.frame m ρ

theorem frame_kernel_ideal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories that agree on the arguments, end with the pairwise readout of those arguments. -/
theorem algebraic : Cert.algebraic_KernelIdeal_ReferenceIdeal := by
  intro m ρ m' ρ' _ hagree
  refine ⟨fun c => Cert.Readout.result (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Region.run_result (F := Ideal) m ρ)
    rw [Cert.Readout.Array.final_out m c]
    exact unit_axis _ _ _ _ _ _ _
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, Cert.Readout.Ref.result_eq,
      (hagree c).1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
